-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S16384x9248 : Shape := ⟨2, ![16384, 9248]⟩
abbrev S16384 : Shape := ⟨1, ![16384]⟩
abbrev S9248x8192 : Shape := ⟨2, ![9248, 8192]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S16384x9248 : S_.BroadcastsInDim S16384x9248 (![] : Fin 0 → Fin S16384x9248.rank)
  reducesTo_S16384x9248_S_d0_1 : S16384x9248.ReducesTo [0, 1] S_
  bcast_S_S16384 : S_.BroadcastsInDim S16384 (![] : Fin 0 → Fin S16384.rank)
  reducesTo_S16384_S_d0 : S16384.ReducesTo [0] S_
  bcast_S_S9248x8192 : S_.BroadcastsInDim S9248x8192 (![] : Fin 0 → Fin S9248x8192.rank)
  reducesTo_S9248x8192_S_d0_1 : S9248x8192.ReducesTo [0, 1] S_

variable [Facts]

def fn_part1 {F : FTy → Type} [FloatOps F] (main_v13 : IVec S_ 1) (main_v16 : IVec S9248x8192 1) : IVec S_ 1 :=
  let main_c_5 : IVec S_ 1 := constantI S_ 1 1#1
  let main_v17 : IVec S_ 1 := (fun x v => Host.reduce IntOp.andi x v reducesTo_S9248x8192_S_d0_1 h_S_) main_v16 main_c_5
  let main_v18 : IVec S_ 1 := andi main_v13 main_v17
  main_v18

def fn {F : FTy → Type} [FloatOps F] (main_arg0 : FVec F S64x8192 .f32) (main_arg1 : FVec F S16384x9248 .f32) (main_arg2 : FVec F S16384 .f32) (main_arg3 : FVec F S9248x8192 .f32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S16384x9248 .f32 := Host.absf main_arg1
  let main_cst_0 : FVec F S_ .f32 := constant S_ .f32 0x7F800000#32
  let main_v5 : FVec F S16384x9248 .f32 := broadcastInDim S16384x9248 ![] bcast_S_S16384x9248 main_cst_0
  let main_v6 : IVec S16384x9248 1 := cmpf .olt main_v4 main_v5
  let main_c_1 : IVec S_ 1 := constantI S_ 1 1#1
  let main_v7 : IVec S_ 1 := (fun x v => Host.reduce IntOp.andi x v reducesTo_S16384x9248_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S9248x8192 .f32 := Host.absf main_arg3
  let main_cst_4 : FVec F S_ .f32 := constant S_ .f32 0x7F800000#32
  let main_v15 : FVec F S9248x8192 .f32 := broadcastInDim S9248x8192 ![] bcast_S_S9248x8192 main_cst_4
  let main_v16 : IVec S9248x8192 1 := cmpf .olt main_v14 main_v15
  fn_part1 (F := F) main_v13 main_v16
-- ==== Kernel.lean ====
abbrev S64x8192 : Shape := ⟨2, ![64, 8192]⟩
abbrev S16384x9248 : Shape := ⟨2, ![16384, 9248]⟩
abbrev S16384 : Shape := ⟨1, ![16384]⟩
abbrev S9248x8192 : Shape := ⟨2, ![9248, 8192]⟩
abbrev S64x9248 : Shape := ⟨2, ![64, 9248]⟩
abbrev S64x256 : Shape := ⟨2, ![64, 256]⟩
abbrev S9248x256 : Shape := ⟨2, ![9248, 256]⟩
abbrev S1x16384 : Shape := ⟨2, ![1, 16384]⟩
abbrev S64x16384 : Shape := ⟨2, ![64, 16384]⟩
abbrev S256x9248 : Shape := ⟨2, ![256, 9248]⟩
abbrev S1x256 : Shape := ⟨2, ![1, 256]⟩

abbrev nBuf : Space → Nat
  | .hbm => 7
  | .vmem => 13
  | .smem => 0
  | _ => 0

abbrev bufTy : (tb : Table) → Fin (tcTables nBuf tb) → BufTy
  | .hbm, ⟨0, _⟩ => ⟨S64x8192, .f32⟩
  | .hbm, ⟨1, _⟩ => ⟨S16384x9248, .f32⟩
  | .hbm, ⟨2, _⟩ => ⟨S16384, .f32⟩
  | .hbm, ⟨3, _⟩ => ⟨S9248x8192, .f32⟩
  | .hbm, ⟨4, _⟩ => ⟨S64x9248, .f32⟩
  | .hbm, ⟨5, _⟩ => ⟨S1x16384, .f32⟩
  | .hbm, ⟨6, _⟩ => ⟨S64x16384, .f32⟩
  | .local _ .vmem, ⟨0, _⟩ => ⟨S64x256, .f32⟩
  | .local _ .vmem, ⟨1, _⟩ => ⟨S64x256, .f32⟩
  | .local _ .vmem, ⟨2, _⟩ => ⟨S9248x256, .f32⟩
  | .local _ .vmem, ⟨3, _⟩ => ⟨S9248x256, .f32⟩
  | .local _ .vmem, ⟨4, _⟩ => ⟨S64x9248, .f32⟩
  | .local _ .vmem, ⟨5, _⟩ => ⟨S64x9248, .f32⟩
  | .local _ .vmem, ⟨6, _⟩ => ⟨S64x9248, .f32⟩
  | .local _ .vmem, ⟨7, _⟩ => ⟨S256x9248, .f32⟩
  | .local _ .vmem, ⟨8, _⟩ => ⟨S256x9248, .f32⟩
  | .local _ .vmem, ⟨9, _⟩ => ⟨S1x256, .f32⟩
  | .local _ .vmem, ⟨10, _⟩ => ⟨S1x256, .f32⟩
  | .local _ .vmem, ⟨11, _⟩ => ⟨S64x256, .f32⟩
  | .local _ .vmem, ⟨12, _⟩ => ⟨S64x256, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v13 : BitVec 1 := Scalar.cmpi .eq arg0 c31_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S9248x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x9248 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S64x9248 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x9248 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S64x9248_S64x9248_0_0 : ∀ a, (![0, 0] : Fin 2 → Nat) a + S64x9248.size a ≤ S64x9248.size a
  h_S64x9248 : 0 < S64x9248.numel
  shapeCasts_S64x9248_S64x9248 : S64x9248.ShapeCasts S64x9248
  inb_S64x256_S64x256_0_0 : ∀ a, (![0, 0] : Fin 2 → Nat) a + S64x256.size a ≤ S64x256.size a
  h_S64x256 : 0 < S64x256.numel
  bitsLt_bf16_f32 : FTy.bits .bf16 < FTy.bits .f32
  inb_S9248x256_S9248x256_0_0 : ∀ a, (![0, 0] : Fin 2 → Nat) a + S9248x256.size a ≤ S9248x256.size a
  h_S9248x256 : 0 < S9248x256.numel
  shapeCasts_S16384_S1x16384 : S16384.ShapeCasts S1x16384
  inb_S256x9248_S256x9248_0_0 : ∀ a, (![0, 0] : Fin 2 → Nat) a + S256x9248.size a ≤ S256x9248.size a
  h_S256x9248 : 0 < S256x9248.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  dot_S64x256_S9248x256_S64x9248_1_1_0_0_n_n_wf : DotDims.WF S64x256 S9248x256 S64x9248 [1] [1] [0] [0] [] []
  dot_S64x9248_S256x9248_S64x256_1_1_0_0_n_n_wf : DotDims.WF S64x9248 S256x9248 S64x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S64x8192.size a
  hwx0_0 : ∀ i : grid0.Coords, EltTy.bits .f32 = 32 ∨ (Rect.block (s := S64x8192) S64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S9248x256.size a ≤ S9248x8192.size a
  hwx0_1 : ∀ i : grid0.Coords, EltTy.bits .f32 = 32 ∨ (Rect.block (s := S9248x8192) S9248x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x9248.size a ≤ S64x9248.size a
  hwx0_2 : ∀ i : grid0.Coords, EltTy.bits .f32 = 32 ∨ (Rect.block (s := S64x9248) S64x9248.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x9248.size a ≤ S64x9248.size a
  hwx1_0 : ∀ i : grid1.Coords, EltTy.bits .f32 = 32 ∨ (Rect.block (s := S64x9248) S64x9248.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x9248.size a ≤ S16384x9248.size a
  hwx1_1 : ∀ i : grid1.Coords, EltTy.bits .f32 = 32 ∨ (Rect.block (s := S16384x9248) S256x9248.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x16384.size a
  hwx1_2 : ∀ i : grid1.Coords, EltTy.bits .f32 = 32 ∨ (Rect.block (s := S1x16384) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x256.size a ≤ S64x16384.size a
  hwx1_3 : ∀ i : grid1.Coords, EltTy.bits .f32 = 32 ∨ (Rect.block (s := S64x16384) S64x256.size (cc1_transform_3 i) (hinb1_3 i)).WholeWords (EltTy.packing .f32)

variable [Facts₀]

def dot_S64x256_S9248x256_S64x9248_1_1_0_0_n_n : DotDims S64x256 S9248x256 S64x9248 where
  lhsContracting := [1]
  rhsContracting := [1]
  lhsNonContracting := [0]
  rhsNonContracting := [0]
  lhsBatch := []
  rhsBatch := []
  wf := dot_S64x256_S9248x256_S64x9248_1_1_0_0_n_n_wf
def dot_S64x9248_S256x9248_S64x256_1_1_0_0_n_n : DotDims S64x9248 S256x9248 S64x256 where
  lhsContracting := [1]
  rhsContracting := [1]
  lhsNonContracting := [0]
  rhsNonContracting := [0]
  lhsBatch := []
  rhsBatch := []
  wf := dot_S64x9248_S256x9248_S64x256_1_1_0_0_n_n_wf

abbrev win0_0 : Pipeline.Window sig grid0 :=
  Pipeline.Window.ofSpec (Memref.whole main_arg0) S64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S9248x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x9248.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S64x9248.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x9248.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S64x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x8192 : Shape := ⟨2, ![64, 8192]⟩
abbrev S16384x9248 : Shape := ⟨2, ![16384, 9248]⟩
abbrev S16384 : Shape := ⟨1, ![16384]⟩
abbrev S9248x8192 : Shape := ⟨2, ![9248, 8192]⟩
abbrev S8192x9248 : Shape := ⟨2, ![8192, 9248]⟩
abbrev S64x9248 : Shape := ⟨2, ![64, 9248]⟩
abbrev S9248x16384 : Shape := ⟨2, ![9248, 16384]⟩
abbrev S64x16384 : Shape := ⟨2, ![64, 16384]⟩
abbrev S1x16384 : Shape := ⟨2, ![1, 16384]⟩

abbrev nBuf : Space → Nat
  | .hbm => 11
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S16384x9248, .f32⟩
  | .hbm, ⟨2, _⟩ => ⟨S16384, .f32⟩
  | .hbm, ⟨3, _⟩ => ⟨S9248x8192, .f32⟩
  | .hbm, ⟨4, _⟩ => ⟨S8192x9248, .f32⟩
  | .hbm, ⟨5, _⟩ => ⟨S64x9248, .f32⟩
  | .hbm, ⟨6, _⟩ => ⟨S9248x16384, .f32⟩
  | .hbm, ⟨7, _⟩ => ⟨S64x16384, .f32⟩
  | .hbm, ⟨8, _⟩ => ⟨S1x16384, .f32⟩
  | .hbm, ⟨9, _⟩ => ⟨S64x16384, .f32⟩
  | .hbm, ⟨10, _⟩ => ⟨S64x16384, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  transposes_S9248x8192_S8192x9248_1_0 : S9248x8192.Transposes [1, 0] S8192x9248
  transposes_S16384x9248_S9248x16384_1_0 : S16384x9248.Transposes [1, 0] S9248x16384
  bcast_S16384_S1x16384_1 : S16384.BroadcastsInDim S1x16384 (![1] : Fin 1 → Fin S1x16384.rank)
  bcast_S1x16384_S64x16384_0_1 : S1x16384.BroadcastsInDim S64x16384 (![0, 1] : Fin 2 → Fin S64x16384.rank)
  dot_S64x8192_S8192x9248_S64x9248_1_0_0_1_n_n_wf : DotDims.WF S64x8192 S8192x9248 S64x9248 [1] [0] [0] [1] [] []
  dot_S64x9248_S9248x16384_S64x16384_1_0_0_1_n_n_wf : DotDims.WF S64x9248 S9248x16384 S64x16384 [1] [0] [0] [1] [] []

variable [Facts₀]

def dot_S64x8192_S8192x9248_S64x9248_1_0_0_1_n_n : DotDims S64x8192 S8192x9248 S64x9248 where
  lhsContracting := [1]
  rhsContracting := [0]
  lhsNonContracting := [0]
  rhsNonContracting := [1]
  lhsBatch := []
  rhsBatch := []
  wf := dot_S64x8192_S8192x9248_S64x9248_1_0_0_1_n_n_wf
def dot_S64x9248_S9248x16384_S64x16384_1_0_0_1_n_n : DotDims S64x9248 S9248x16384 S64x16384 where
  lhsContracting := [1]
  rhsContracting := [0]
  lhsNonContracting := [0]
  rhsNonContracting := [1]
  lhsBatch := []
  rhsBatch := []
  wf := dot_S64x9248_S9248x16384_S64x16384_1_0_0_1_n_n_wf

class Facts : Prop extends Facts₀ where

variable [Facts]
-- ==== Proof.PadK.lean ====
import proofs.«136431_j73967926771856_1_alg».proof.Proof.Gen.Kernel.Launch
import proofs.«136431_j73967926771856_1_alg».proof.Proof.Gen.Kernel.Skeleton
import proofs.«136431_j73967926771856_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
  The first kernel (an accumulating product over a grid of 32 points), as a triple per case of its two branches and as
  the per-point obligation of the pipeline that runs it.

  At every point the body loads a 64 × 256 block and a 9248 × 256 block, multiplies them (contracting the second axis of
  both) into zero, adds the 64 × 9248 scratch accumulator and stores the sum back into the accumulator. At the first point
  it first fills the accumulator with zeros; at the last point it also copies the accumulator into the output's block,
  which is the whole 64 × 9248 result and is written back there only. So after point n the accumulator holds
  `accA n = step(block n, accA (n-1))`, `accA 0 = step(block 0, zeros)` — stated here for any float instance, with the
  body's arithmetic kept as the named payloads.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The accumulating matmul's branch conditions over the grid -/

/-- The body's first branch (reset the accumulator), as the kernel computes it from the grid coordinate. -/
abbrev isFirst (i : grid0.Coords) : Prop := (Scalar.cmpi .ne (Scalar.extui (Scalar.cmpi .eq (BitVec.ofNat 32 (i 0).val) 0#32)) 0#32) = 1#1
/-- It is taken at point 0 only. -/
theorem isFirst_iff : ∀ t : Fin cfg0.N, isFirst (grid0.coords t) ↔ t.val = 0 :=
  (by decide +kernel : ∀ t : Fin grid0.N, isFirst (grid0.coords t) ↔ t.val = 0)
/-- The body's last branch (copy the accumulator out). -/
abbrev isLast (i : grid0.Coords) : Prop := k0_cond2 i = 1#1
/-- It is taken at point 31 only. -/
theorem isLast_iff : ∀ t : Fin cfg0.N, isLast (grid0.coords t) ↔ t.val = 31 :=
  (by decide +kernel : ∀ t : Fin grid0.N, isLast (grid0.coords t) ↔ t.val = 31)

/-- The zero offsets of a whole-block access. -/
theorem off2_zero : (![0, 0] : Fin 2 → Nat) = fun _ => 0 := by
  funext a; fin_cases a <;> rfl

/-- A single whole-block piece covers the block. -/
theorem cover_whole {S : Shape} {e : EltTy} {off : Fin S.rank → Nat} (h : off = fun _ => 0) (inb : ∀ a, off a + S.size a ≤ S.size a)
    (w : S.Idx → Elt F e) (y : S.Idx) :
    ∃ p ∈ ([⟨Rect.unit off S.size inb, w⟩] : List (View.Piece (Elt F) S e)), y ∈ p.1.set :=
  ⟨_, List.mem_singleton_self _, View.mem_set_unit_zero h inb y⟩

/-! ## The body of the accumulating matmul, case by case -/

set_option maxHeartbeats 1000000 in
/-- A middle point: the scratch holds the running sum `xs`; the body adds this point's product to it and stores it back. -/
theorem run_mid (c : Dev nD) (E : Set ℕ) (i : grid0.Coords)
    (arg1 : Memref sig .tc .vmem S64x256 .f32) (harg1 : arg1.IsWhole) (arg2 : Memref sig .tc .vmem S9248x256 .f32) (harg2 : arg2.IsWhole)
    (arg3 : Memref sig .tc .vmem S64x9248 .f32) (harg3 : arg3.IsWhole) (arg4 : Memref sig .tc .vmem S64x9248 .f32) (harg4 : arg4.IsWhole)
    (hf : ¬ isFirst i) (hl : ¬ isLast i)
    (x0 : Vec F S64x256 .f32) (x1 : Vec F S9248x256 .f32) (xi xs : Vec F S64x9248 .f32) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare xs
        ∗ (iprop(owns (c : Thread nD τ) arg1 fullShare x0 ∗ owns (c : Thread nD τ) arg2 fullShare x1 ∗ owns (c : Thread nD τ) arg3 fullShare xi
            ∗ owns (c : Thread nD τ) arg4 fullShare (k0_pay2 x0 x1 xs)) -∗ K ⟨⟩))
      ⊢ wp frame (wpE (defs₀ (F := F)) Variants.none c none) E (cc0__pad_matmul_kernel i arg1 harg1 arg2 harg2 arg3 harg3 arg4 harg4) K := by
  simp only [cc0__pad_matmul_kernel_eq_skeleton]; unfold cc0__pad_matmul_kernel_skel
  unfold owns
  iintro ⟨⟨%f0, %hf0, H0⟩, ⟨%f1, %hf1, H1⟩, ⟨%f3, %hf3, H3⟩, ⟨%f4, %hf4, H4⟩, Hk⟩
  subst hf0; subst hf1; subst hf3; subst hf4
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  iexists _; isplitr
  swap; · iexact H4
  ipureintro
  rw [View.read_writes_eq_canon _ _ _ (cover_whole off2_zero _ _), View.canon_unit_zero off2_zero]
  simp only [View.readAt_eq_ld, View.ld_unit_zero (S := S64x256) off2_zero, View.ld_unit_zero (S := S9248x256) off2_zero,
    View.ld_unit_zero (S := S64x9248) off2_zero]

set_option maxHeartbeats 1000000 in
/-- The first point: the scratch holds anything; the body zeroes it, adds this point's product and stores it back. -/
theorem run_first (c : Dev nD) (E : Set ℕ) (i : grid0.Coords)
    (arg1 : Memref sig .tc .vmem S64x256 .f32) (harg1 : arg1.IsWhole) (arg2 : Memref sig .tc .vmem S9248x256 .f32) (harg2 : arg2.IsWhole)
    (arg3 : Memref sig .tc .vmem S64x9248 .f32) (harg3 : arg3.IsWhole) (arg4 : Memref sig .tc .vmem S64x9248 .f32) (harg4 : arg4.IsWhole)
    (hf : isFirst i) (hl : ¬ isLast i)
    (x0 : Vec F S64x256 .f32) (x1 : Vec F S9248x256 .f32) (xi : Vec F S64x9248 .f32) (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (k0_pay2 x0 x1 (k0_pay1 (F := F)))) -∗ K ⟨⟩))
      ⊢ wp frame (wpE (defs₀ (F := F)) Variants.none c none) E (cc0__pad_matmul_kernel i arg1 harg1 arg2 harg2 arg3 harg3 arg4 harg4) K := by
  simp only [cc0__pad_matmul_kernel_eq_skeleton]; unfold cc0__pad_matmul_kernel_skel
  unfold owns
  iintro ⟨⟨%f0, %hf0, H0⟩, ⟨%f1, %hf1, H1⟩, ⟨%f3, %hf3, H3⟩, ⟨%d4, %f4, -, H4⟩, Hk⟩
  subst hf0; subst hf1; subst hf3
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  iexists _; isplitr
  swap; · iexact H4
  ipureintro
  sl_unfold_words
  rw [View.read_writes_eq_canon _ _ _ (fun y => ⟨_, List.Mem.head _, View.mem_set_unit_zero off2_zero inb_S64x9248_S64x9248_0_0 y⟩),
    View.canon_cons_unit_zero off2_zero, View.readCov_unit_zero _ off2_zero]
  simp only [View.readAt_eq_ld, View.ld_unit_zero (S := S64x256) off2_zero, View.ld_unit_zero (S := S9248x256) off2_zero]

set_option maxHeartbeats 1000000 in
/-- The last point: as a middle point, and the finished sum is copied into the output's block. -/
theorem run_last (c : Dev nD) (E : Set ℕ) (i : grid0.Coords)
    (arg1 : Memref sig .tc .vmem S64x256 .f32) (harg1 : arg1.IsWhole) (arg2 : Memref sig .tc .vmem S9248x256 .f32) (harg2 : arg2.IsWhole)
    (arg3 : Memref sig .tc .vmem S64x9248 .f32) (harg3 : arg3.IsWhole) (arg4 : Memref sig .tc .vmem S64x9248 .f32) (harg4 : arg4.IsWhole)
    (hf : ¬ isFirst i) (hl : isLast i)
    (x0 : Vec F S64x256 .f32) (x1 : Vec F S9248x256 .f32) (xs : Vec F S64x9248 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k0_pay2 x0 x1 xs)
            ∗ owns (c : Thread nD τ) arg4 fullShare (k0_pay2 x0 x1 xs)) -∗ K ⟨⟩))
      ⊢ wp frame (wpE (defs₀ (F := F)) Variants.none c none) E (cc0__pad_matmul_kernel i arg1 harg1 arg2 harg2 arg3 harg3 arg4 harg4) K := by
  simp only [cc0__pad_matmul_kernel_eq_skeleton]; unfold cc0__pad_matmul_kernel_skel
  unfold owns
  iintro ⟨⟨%f0, %hf0, H0⟩, ⟨%f1, %hf1, H1⟩, ⟨%d3, %f3, -, H3⟩, ⟨%f4, %hf4, H4⟩, Hk⟩
  subst hf0; subst hf1; subst hf4
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    sl_unfold_words
    rw [View.read_writes_eq_canon _ _ _ (cover_whole off2_zero _ _), View.canon_unit_zero off2_zero, View.readCov_unit_zero _ off2_zero]
    simp only [View.readAt_eq_ld, View.ld_unit_zero (S := S64x256) off2_zero, View.ld_unit_zero (S := S9248x256) off2_zero,
      View.ld_unit_zero (S := S64x9248) off2_zero]
  iexists _; isplitr
  swap; · iexact H4
  ipureintro
  sl_unfold_words
  rw [View.read_writes_eq_canon _ _ _ (cover_whole off2_zero _ _), View.canon_unit_zero off2_zero]
  simp only [View.readAt_eq_ld, View.ld_unit_zero (S := S64x256) off2_zero, View.ld_unit_zero (S := S9248x256) off2_zero,
    View.ld_unit_zero (S := S64x9248) off2_zero]

/-! ## Where the windows of the accumulating matmul are idle -/

theorem live0_0 : ∀ t : Fin cfg0.N, cfg0.idle 0 (grid0.coords t) = false := by decide +kernel
theorem live0_1 : ∀ t : Fin cfg0.N, cfg0.idle 1 (grid0.coords t) = false := by decide +kernel
/-- Away from the last point the output's block is neither stored into nor written back. -/
theorem idle0_2 : ∀ t : Fin cfg0.N, ¬ isLast (grid0.coords t) → cfg0.idle 2 (grid0.coords t) = true := by decide +kernel
theorem noFlush0_2 : ∀ t : Fin cfg0.N, ¬ isLast (grid0.coords t) → (cfg0.win 2).flush t = false := by decide +kernel
/-- At the last point it is stored. -/
theorem live0_2 : ∀ t : Fin cfg0.N, isLast (grid0.coords t) → cfg0.idle 2 (grid0.coords t) = false := by decide +kernel

section Regions
-- the TensorCore's buffer contents when a region is entered
variable (V : (c : Dev nD) → (b : Ref sig .tc) → Buf (Elt F) ((c : Thread nD τ).loc b))

/-! # The accumulating matmul (region 0) at entry contents `V` -/

/-- Window `w`'s block at point `t`: columns `256 t … 256 t + 255` of the window's array. -/
def blkA (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point. -/
theorem beforeA_0_of {c : Dev nD} (dat : Dat τ (Elt F) Unit ℕ (UR sig nD τ) ℕ cfg0 c) (hA : dat.A 0 = V c (Pipeline.arrRef spec0 0))
    (hafter : ∀ t, dat.after 0 t = blkA V c 0 t) (t : Fin cfg0.N) (d) : dat.before 0 t d = blkA V c 0 t :=
  (dat.before_in_eq_fetched 0 rfl (fun _ => rfl) (fun _ _ _ => rfl) (fun t => by rw [hafter]; unfold Dat.blockOf blkA; rw [hA]; try rfl) t d).trans
    (by unfold Dat.fetched Dat.blockOf blkA; rw [hA]; try rfl)
theorem beforeA_1_of {c : Dev nD} (dat : Dat τ (Elt F) Unit ℕ (UR sig nD τ) ℕ cfg0 c) (hA : dat.A 1 = V c (Pipeline.arrRef spec0 1))
    (hafter : ∀ t, dat.after 1 t = blkA V c 1 t) (t : Fin cfg0.N) (d) : dat.before 1 t d = blkA V c 1 t :=
  (dat.before_in_eq_fetched 1 rfl (fun _ => rfl) (fun _ _ _ => rfl) (fun t => by rw [hafter]; unfold Dat.blockOf blkA; rw [hA]; try rfl) t d).trans
    (by unfold Dat.fetched Dat.blockOf blkA; rw [hA]; try rfl)

/-- THE RUNNING SUM: what the scratch accumulator holds after point `n` — zero plus the products of the column blocks
    `0 … n` of the two operands. -/
def accA (c : Dev nD) : (n : ℕ) → n < cfg0.N → Vec F S64x9248 .f32
  | 0, hn => k0_pay2 (blkA V c 0 ⟨0, hn⟩) (blkA V c 1 ⟨0, hn⟩) (k0_pay1 (F := F))
  | n + 1, hn => k0_pay2 (blkA V c 0 ⟨n + 1, hn⟩) (blkA V c 1 ⟨n + 1, hn⟩) (accA c n (Nat.lt_of_succ_lt hn))

theorem accA_first (c : Dev nD) (t : Fin cfg0.N) (h : t.val = 0) :
    accA V c t.val t.isLt = k0_pay2 (blkA V c 0 t) (blkA V c 1 t) (k0_pay1 (F := F)) := by
  obtain ⟨n, hn⟩ := t
  cases n with
  | zero => rfl
  | succ n => exact absurd h (Nat.succ_ne_zero n)

theorem accA_later (c : Dev nD) (t : Fin cfg0.N) (h : t.val ≠ 0) :
    accA V c t.val t.isLt = k0_pay2 (blkA V c 0 t) (blkA V c 1 t) (accA V c (t.val - 1) (Nat.lt_of_le_of_lt (Nat.sub_le _ _) t.isLt)) := by
  obtain ⟨n, hn⟩ := t
  cases n with
  | zero => exact absurd rfl h
  | succ n => rfl

/-- The scratch accumulator as a memref. -/
abbrev scr : Memref sig .tc .vmem S64x9248 .f32 := Memref.whole cc0_scratch0

/-- The core's other scoped buffers (the second kernel's staging buffers), each at some contents. -/
def restB (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region's resting invariant with the accumulator singled out. -/
theorem PhiA0_eq (c : Dev nD) :
    (Pipeline.ΦA spec0 c : sProp 𝕄)
      = iprop(iprop((∃ d, owns (c : Thread nD τ) scr fullShare d) ∗ restB (F := F) c) ∗ (∃ r, prngReg c r)) := by
  unfold Pipeline.ΦA restB; rw [scopedRest0_eq]; simp only [scr, owns_whole]; try rfl

/-- The invariant before position `n`: before the first point the accumulator holds anything; afterwards the running sum
    the point before left. -/
def PhiAcc (c : Dev nD) : (n : ℕ) → n ≤ cfg0.N → sProp 𝕄
  | 0, _ => Pipeline.ΦA spec0 c
  | n + 1, hn => iprop(iprop(owns (c : Thread nD τ) scr fullShare (accA V c n hn) ∗ restB (F := F) c) ∗ (∃ r, prngReg c r))

theorem PhiAcc_zero (c : Dev nD) (n : ℕ) (h : n ≤ cfg0.N) (hz : n = 0) : PhiAcc V c n h = Pipeline.ΦA spec0 c := by
  subst hz; rfl
theorem PhiAcc_succ (c : Dev nD) (n : ℕ) (hn : n < cfg0.N) :
    PhiAcc V c (n + 1) hn = iprop(iprop(owns (c : Thread nD τ) scr fullShare (accA V c n hn) ∗ restB (F := F) c) ∗ (∃ r, prngReg c r)) := rfl
theorem PhiAcc_pos (c : Dev nD) (n : ℕ) (h : n ≤ cfg0.N) (hz : n ≠ 0) :
    PhiAcc V c n h = iprop(iprop(owns (c : Thread nD τ) scr fullShare (accA V c (n - 1) (by omega)) ∗ restB (F := F) c) ∗ (∃ r, prngReg c r)) := by
  cases n with
  | zero => exact absurd rfl hz
  | succ n => rfl

/-- The proof data of the accumulating matmul: the arrays as the region finds them; each input's buffer at its block; the
    output's buffer (where it is stored) at the running sum; the invariant carrying the accumulator. -/
def datA (c : Dev nD) : Dat τ (Elt F) Unit ℕ (UR sig nD τ) ℕ cfg0 c where
  A w := V c (Pipeline.arrRef spec0 w)
  after w t := match w with
    | ⟨0, _⟩ => blkA V c 0 t
    | ⟨1, _⟩ => blkA V c 1 t
    | ⟨2, _⟩ => accA V c t.val t.isLt
  Φ t := PhiAcc V c t.val (Nat.le_of_lt_succ t.isLt)
  q _ := fullShare
  owed _ := 0

theorem A_eqA (c : Dev nD) (w : Fin cfg0.W) : (datA V c).A w = V c (Pipeline.arrRef spec0 w) := by
  dsimp only [datA]
theorem PhiAcc_castSucc (c : Dev nD) (t : Fin cfg0.N) :
    (datA V c).Φ t.castSucc = PhiAcc V c t.val (Nat.le_of_lt t.isLt) := by
  dsimp only [datA]; simp only [Fin.coe_castSucc]
theorem afterA_0 (c : Dev nD) (t : Fin cfg0.N) : (datA V c).after 0 t = blkA V c 0 t := by dsimp only [datA]
theorem afterA_1 (c : Dev nD) (t : Fin cfg0.N) : (datA V c).after 1 t = blkA V c 1 t := by dsimp only [datA]
theorem afterA_2 (c : Dev nD) (t : Fin cfg0.N) : (datA V c).after 2 t = accA V c t.val t.isLt := by dsimp only [datA]
theorem beforeA_0 (c : Dev nD) (t : Fin cfg0.N) (d) : (datA V c).before 0 t d = blkA V c 0 t :=
  beforeA_0_of V (datA V c) (A_eqA V c 0) (afterA_0 V c) t d
theorem beforeA_1 (c : Dev nD) (t : Fin cfg0.N) (d) : (datA V c).before 1 t d = blkA V c 1 t :=
  beforeA_1_of V (datA V c) (A_eqA V c 1) (afterA_1 V c) t d

/-- What the body is called with at point `t`, -/
def bodyPreA (c : Dev nD) (t : Fin cfg0.N) : sProp 𝕄 :=
  iprop((datA V c).Φ t.castSucc ∗ (datA V c).owesAt () t.castSucc
    ∗ (∃ d, owns (c : Thread nD τ) (st0_0 t) fullShare ((datA V c).before 0 t d))
    ∗ (∃ d, owns (c : Thread nD τ) (st0_1 t) fullShare ((datA V c).before 1 t d))
    ∗ (∃ d, owns (c : Thread nD τ) (st0_2 t) fullShare ((datA V c).before 2 t d)))

/-- and what it returns. -/
def bodyPostA (c : Dev nD) (t : Fin cfg0.N) : sProp 𝕄 :=
  iprop((datA V c).Φ t.succ ∗ (datA V c).owesAt () t.succ
    ∗ (datA V c).leavesExact 0 t
    ∗ (datA V c).leavesExact 1 t
    ∗ (datA V c).leavesExact 2 t)

set_option maxHeartbeats 4000000 in
/-- The body at any point: first, middle or last, by the point's number. -/
theorem sound_bodyA (c : Dev nD) (t : Fin cfg0.N) :
    bodyPreA V c t ⊢ wp frame (wpE (defs₀ (F := F)) Variants.none c none) Set.univ (bodyAt0 t) (fun _ => bodyPostA V c t) := by
  unfold bodyPreA bodyPostA bodyAt0
  simp only [beforeA_0, beforeA_1]
  rw [show (datA V c).owesAt () t.succ = (datA V c).owesAt () t.castSucc from rfl]
  rw [show (datA V c).Φ t.succ = PhiAcc V c (t.val + 1) t.isLt from rfl, PhiAcc_succ]
  have hN : t.val < 32 := lt_of_lt_of_eq t.isLt (show cfg0.N = 32 from N_0)
  rw [show (datA V c).leavesExact 0 t = owns (c : Thread nD τ) (st0_0 t) fullShare ((datA V c).after 0 t) from by
    unfold Dat.leavesExact; rw [live0_0 t], afterA_0]
  rw [show (datA V c).leavesExact 1 t = owns (c : Thread nD τ) (st0_1 t) fullShare ((datA V c).after 1 t) from by
    unfold Dat.leavesExact; rw [live0_1 t], afterA_1]
  by_cases h0 : t.val = 0
  · have hf : isFirst (grid0.coords t) := (isFirst_iff t).mpr h0
    have hl : ¬ isLast (grid0.coords t) := fun h => by have := (isLast_iff t).mp h; omega
    rw [Dat.leavesExact_idle (datA V c) 2 t (idle0_2 t hl) (noFlush0_2 t hl)]
    rw [accA_first V c t h0]
    rw [PhiAcc_castSucc V c t, PhiAcc_zero V c _ _ h0, PhiA0_eq]
    iintro ⟨⟨⟨HS, HR⟩, Hg⟩, Ho, ⟨%d0, H0⟩, ⟨%d1, H1⟩, ⟨%d2, H2⟩⟩
    iapply (run_first c Set.univ (grid0.coords t) _ _ _ _ _ _ _ _ hf hl (blkA V c 0 t) (blkA V c 1 t) _ _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · by_cases h1 : t.val = 31
    · have hf : ¬ isFirst (grid0.coords t) := fun h => h0 ((isFirst_iff t).mp h)
      have hl : isLast (grid0.coords t) := (isLast_iff t).mpr h1
      rw [show (datA V c).leavesExact 2 t = owns (c : Thread nD τ) (st0_2 t) fullShare ((datA V c).after 2 t) from by
        unfold Dat.leavesExact; rw [live0_2 t hl], afterA_2]
      rw [accA_later V c t h0]
      rw [PhiAcc_castSucc V c t, PhiAcc_pos V c _ _ h0]
      iintro ⟨⟨⟨HS, HR⟩, Hg⟩, Ho, ⟨%d0, H0⟩, ⟨%d1, H1⟩, ⟨%d2, H2⟩⟩
      iapply (run_last c Set.univ (grid0.coords t) _ _ _ _ _ _ _ _ hf hl (blkA V c 0 t) (blkA V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · have hf : ¬ isFirst (grid0.coords t) := fun h => h0 ((isFirst_iff t).mp h)
      have hl : ¬ isLast (grid0.coords t) := fun h => h1 ((isLast_iff t).mp h)
      rw [Dat.leavesExact_idle (datA V c) 2 t (idle0_2 t hl) (noFlush0_2 t hl)]
      rw [accA_later V c t h0]
      rw [PhiAcc_castSucc V c t, PhiAcc_pos V c _ _ h0]
      iintro ⟨⟨⟨HS, HR⟩, Hg⟩, Ho, ⟨%d0, H0⟩, ⟨%d1, H1⟩, ⟨%d2, H2⟩⟩
      iapply (run_mid c Set.univ (grid0.coords t) _ _ _ _ _ _ _ _ hf hl (blkA V c 0 t) (blkA V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligationA (c : Dev nD) : BodyObligation (datA (F := F) V c) (defs₀ (F := F)) Variants.none () Set.univ := fun t => by
  rw [bigSep_W0, bigSep_W0]
  exact sound_bodyA V c t

/-- What the launch hands the region is the invariant before the first point. -/
theorem hinA (c : Dev nD) : Pipeline.ΦA spec0 c ⊢ (datA V c).Φ 0 := by
  rw [show (datA V c).Φ 0 = PhiAcc V c 0 (Nat.zero_le _) from rfl, PhiAcc_zero V c 0 _ rfl]
  try exact Idealize.SL.BI.Entails.refl _

/-- After the last point the invariant gives the resting one back: the accumulator's contents are forgotten. -/
theorem houtA (c : Dev nD) : (datA V c).Φ (Fin.last cfg0.N) ⊢ Pipeline.ΦA spec0 c := by
  rw [show (datA V c).Φ (Fin.last cfg0.N) = PhiAcc V c (Fin.last cfg0.N).val (Nat.le_of_lt_succ (Fin.last cfg0.N).isLt) from rfl,
    PhiAcc_pos V c _ _ (by rw [Fin.val_last]; have : cfg0.N = 32 := N_0; omega), PhiA0_eq]
  iintro ⟨⟨HS, HR⟩, Hg⟩
  isplitl [HS HR]
  · isplitl [HS]
    · iexists _; iexact HS
    iexact HR
  iexact Hg

end Regions

end Cert.Kernel.Hand
end
-- ==== Proof.BiasK.lean ====
import proofs.«136431_j73967926771856_1_alg».proof.Proof.PadK

/-!
  The second kernel (a product plus a row vector over a grid of 64 points): at every point the body loads the whole
  64 × 9248 operand, a 256 × 9248 block and a 1 × 256 block, and stores their product (contracting the second axis of both)
  plus the row spread over the 64 rows, whole, into the output's 64 × 256 block. Nothing is carried between points.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The matmul with bias (region 1) -/

set_option maxHeartbeats 1000000 in
/-- The body: the three input blocks are read, their product plus the spread bias row is stored whole into the output's block. -/
theorem run_bias (c : Dev nD) (E : Set ℕ) (i : grid1.Coords)
    (arg1 : Memref sig .tc .vmem S64x9248 .f32) (harg1 : arg1.IsWhole) (arg2 : Memref sig .tc .vmem S256x9248 .f32) (harg2 : arg2.IsWhole)
    (arg3 : Memref sig .tc .vmem S1x256 .f32) (harg3 : arg3.IsWhole) (arg4 : Memref sig .tc .vmem S64x256 .f32) (harg4 : arg4.IsWhole)
    (x0 : Vec F S64x9248 .f32) (x1 : Vec F S256x9248 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay1 x0 x1 x2)) -∗ K ⟨⟩))
      ⊢ wp frame (wpE (defs₀ (F := F)) Variants.none c none) E (cc1__weight_matmul_kernel i arg1 harg1 arg2 harg2 arg3 harg3 arg4 harg4) K := by
  simp only [cc1__weight_matmul_kernel_eq_skeleton]; unfold cc1__weight_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (cover_whole off2_zero _ _), View.canon_unit_zero off2_zero]
  simp only [View.readAt_eq_ld, View.ld_unit_zero (S := S64x9248) off2_zero, View.ld_unit_zero (S := S256x9248) off2_zero,
    View.ld_unit_zero (S := S1x256) off2_zero]

section Regions
variable (V : (c : Dev nD) → (b : Ref sig .tc) → Buf (Elt F) ((c : Thread nD τ).loc b))

/-- Window `w`'s block at point `t`. -/
def blkB (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem beforeB_0_of {c : Dev nD} (dat : Dat τ (Elt F) Unit ℕ (UR sig nD τ) ℕ cfg1 c) (hA : dat.A 0 = V c (Pipeline.arrRef spec1 0))
    (hafter : ∀ t, dat.after 0 t = blkB V c 0 t) (t : Fin cfg1.N) (d) : dat.before 0 t d = blkB V c 0 t :=
  (dat.before_in_eq_fetched 0 rfl (fun _ => rfl) (fun _ _ _ => rfl) (fun t => by rw [hafter]; unfold Dat.blockOf blkB; rw [hA]; try rfl) t d).trans
    (by unfold Dat.fetched Dat.blockOf blkB; rw [hA]; try rfl)
theorem beforeB_1_of {c : Dev nD} (dat : Dat τ (Elt F) Unit ℕ (UR sig nD τ) ℕ cfg1 c) (hA : dat.A 1 = V c (Pipeline.arrRef spec1 1))
    (hafter : ∀ t, dat.after 1 t = blkB V c 1 t) (t : Fin cfg1.N) (d) : dat.before 1 t d = blkB V c 1 t :=
  (dat.before_in_eq_fetched 1 rfl (fun _ => rfl) (fun _ _ _ => rfl) (fun t => by rw [hafter]; unfold Dat.blockOf blkB; rw [hA]; try rfl) t d).trans
    (by unfold Dat.fetched Dat.blockOf blkB; rw [hA]; try rfl)
theorem beforeB_2_of {c : Dev nD} (dat : Dat τ (Elt F) Unit ℕ (UR sig nD τ) ℕ cfg1 c) (hA : dat.A 2 = V c (Pipeline.arrRef spec1 2))
    (hafter : ∀ t, dat.after 2 t = blkB V c 2 t) (t : Fin cfg1.N) (d) : dat.before 2 t d = blkB V c 2 t :=
  (dat.before_in_eq_fetched 2 rfl (fun _ => rfl) (fun _ _ _ => rfl) (fun t => by rw [hafter]; unfold Dat.blockOf blkB; rw [hA]; try rfl) t d).trans
    (by unfold Dat.fetched Dat.blockOf blkB; rw [hA]; try rfl)

/-- The proof data: each input's buffer at its block, the output's at the body's result of the three blocks. -/
def datB (c : Dev nD) : Dat τ (Elt F) Unit ℕ (UR sig nD τ) ℕ cfg1 c where
  A w := V c (Pipeline.arrRef spec1 w)
  after w t := match w with
    | ⟨0, _⟩ => blkB V c 0 t
    | ⟨1, _⟩ => blkB V c 1 t
    | ⟨2, _⟩ => blkB V c 2 t
    | ⟨3, _⟩ => k1_pay1 (blkB V c 0 t) (blkB V c 1 t) (blkB V c 2 t)
  Φ _ := Pipeline.ΦA spec1 c
  q _ := fullShare
  owed _ := 0

theorem A_eqB (c : Dev nD) (w : Fin cfg1.W) : (datB V c).A w = V c (Pipeline.arrRef spec1 w) := by
  dsimp only [datB]
theorem afterB_0 (c : Dev nD) (t : Fin cfg1.N) : (datB V c).after 0 t = blkB V c 0 t := by dsimp only [datB]
theorem afterB_1 (c : Dev nD) (t : Fin cfg1.N) : (datB V c).after 1 t = blkB V c 1 t := by dsimp only [datB]
theorem afterB_2 (c : Dev nD) (t : Fin cfg1.N) : (datB V c).after 2 t = blkB V c 2 t := by dsimp only [datB]
theorem afterB_3 (c : Dev nD) (t : Fin cfg1.N) : (datB V c).after 3 t = k1_pay1 (blkB V c 0 t) (blkB V c 1 t) (blkB V c 2 t) := by dsimp only [datB]
theorem beforeB_0 (c : Dev nD) (t : Fin cfg1.N) (d) : (datB V c).before 0 t d = blkB V c 0 t :=
  beforeB_0_of V (datB V c) (A_eqB V c 0) (afterB_0 V c) t d
theorem beforeB_1 (c : Dev nD) (t : Fin cfg1.N) (d) : (datB V c).before 1 t d = blkB V c 1 t :=
  beforeB_1_of V (datB V c) (A_eqB V c 1) (afterB_1 V c) t d
theorem beforeB_2 (c : Dev nD) (t : Fin cfg1.N) (d) : (datB V c).before 2 t d = blkB V c 2 t :=
  beforeB_2_of V (datB V c) (A_eqB V c 2) (afterB_2 V c) t d

def bodyPreB (c : Dev nD) (t : Fin cfg1.N) : sProp 𝕄 :=
  iprop((datB V c).Φ t.castSucc ∗ (datB V c).owesAt () t.castSucc
    ∗ (∃ d, owns (c : Thread nD τ) (st1_0 t) fullShare ((datB V c).before 0 t d))
    ∗ (∃ d, owns (c : Thread nD τ) (st1_1 t) fullShare ((datB V c).before 1 t d))
    ∗ (∃ d, owns (c : Thread nD τ) (st1_2 t) fullShare ((datB V c).before 2 t d))
    ∗ (∃ d, owns (c : Thread nD τ) (st1_3 t) fullShare ((datB V c).before 3 t d)))

def bodyPostB (c : Dev nD) (t : Fin cfg1.N) : sProp 𝕄 :=
  iprop((datB V c).Φ t.succ ∗ (datB V c).owesAt () t.succ
    ∗ owns (c : Thread nD τ) (st1_0 t) fullShare ((datB V c).after 0 t)
    ∗ owns (c : Thread nD τ) (st1_1 t) fullShare ((datB V c).after 1 t)
    ∗ owns (c : Thread nD τ) (st1_2 t) fullShare ((datB V c).after 2 t)
    ∗ owns (c : Thread nD τ) (st1_3 t) fullShare ((datB V c).after 3 t))

theorem sound_bodyB (c : Dev nD) (t : Fin cfg1.N) :
    bodyPreB V c t ⊢ wp frame (wpE (defs₀ (F := F)) Variants.none c none) Set.univ (bodyAt1 t) (fun _ => bodyPostB V c t) := by
  unfold bodyPreB bodyPostB bodyAt1
  simp only [beforeB_0, beforeB_1, beforeB_2]
  rw [show (datB V c).Φ t.succ = (datB V c).Φ t.castSucc from rfl,
    show (datB V c).owesAt () t.succ = (datB V c).owesAt () t.castSucc from rfl,
    afterB_0, afterB_1, afterB_2, afterB_3]
  iintro ⟨HΦ, Ho, ⟨%d0, H0⟩, ⟨%d1, H1⟩, ⟨%d2, H2⟩, ⟨%d3, H3⟩⟩
  iapply (run_bias c Set.univ (grid1.coords t) _ _ _ _ _ _ _ _ (blkB V c 0 t) (blkB V c 1 t) (blkB V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligationB (c : Dev nD) : BodyObligation (datB (F := F) V c) (defs₀ (F := F)) Variants.none () Set.univ := fun t => by
  rw [bigSep_W1, bigSep_W1]
  exact sound_bodyB V c t

end Regions

end Cert.Kernel.Hand
end
-- ==== Proof.RunK.lean ====
import proofs.«136431_j73967926771856_1_alg».proof.Proof.BiasK

/-!
  The whole run: the first kernel, the host reshape of the vector to one row, the second kernel — each entered from the
  contents the one before left. The contents at the four boundaries are named `E0` (launch) … `E3` (end); each kernel
  changes only its own result array, the reshape only its own result, so the four arguments end as launched, and the result
  array ends at what the second kernel's write-backs leave.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: the buffers' contents at each boundary of @main -/

/-- Core `c`'s buffers at launch (the first kernel's entry). -/
abbrev E0 : Dev nD → Valuation τ sig (Elt F) := fun c b => m (c, b)
abbrev E0r : (c : Dev nD) → (b : Ref sig .tc) → Buf (Elt F) ((c : Thread nD τ).loc b) := fun c b => E0 m c b
/-- After the first kernel: its arrays at what its write-backs leave, every other buffer as entered. -/
def E1 (c : Dev nD) : Valuation τ sig (Elt F) :=
  Pipeline.withArrays spec0 c (E0 m c) fun w => (datA (E0r m) c).arrAt w cfg0.N
theorem E1_arr (c : Dev nD) (w : Fin cfg0.W) :
    E1 m c (Proc.devRef .tc (Pipeline.arrRef spec0 w)) = (datA (E0r m) c).arrAt w cfg0.N := by
  unfold E1; exact Pipeline.withArrays_arr spec0 launch0.win.arr_inj c _ _ w
theorem E1_of_ne (c : Dev nD) (b : Ref sig .tc) (hb : ∀ w, Pipeline.arrRef spec0 w ≠ b) :
    E1 m c (Proc.devRef .tc b) = E0 m c (Proc.devRef .tc b) := by
  unfold E1; exact Pipeline.withArrays_of_ne spec0 c _ _ b hb
abbrev E1r : (c : Dev nD) → (b : Ref sig .tc) → Buf (Elt F) ((c : Thread nD τ).loc b) := fun c b => E1 m c b
theorem hF0 (c : Dev nD) (w : Fin cfg0.W) : (datA (E0r m) c).arrAt w cfg0.N = E1r m c (Pipeline.arrRef spec0 w) :=
  (E1_arr m c w).symm
theorem hrest0 (c : Dev nD) : ∀ b, b ∉ Finset.univ.image (Pipeline.arrRef spec0) → E1r m c b = E0r m c b :=
  fun b hb => E1_of_ne m c b fun w e => hb (Finset.mem_image.mpr ⟨w, Finset.mem_univ _, e⟩)

/-- After the host reshape of the bias (the second kernel's entry). -/
abbrev E2 : Dev nD → Valuation τ sig (Elt F) := fun c => StableHlo.after hostOps1 (E1 m c)
abbrev E2r : (c : Dev nD) → (b : Ref sig .tc) → Buf (Elt F) ((c : Thread nD τ).loc b) := fun c b => E2 m c b
/-- After the second kernel. -/
def E3 (c : Dev nD) : Valuation τ sig (Elt F) :=
  Pipeline.withArrays spec1 c (E2 m c) fun w => (datB (E2r m) c).arrAt w cfg1.N
theorem E3_arr (c : Dev nD) (w : Fin cfg1.W) :
    E3 m c (Proc.devRef .tc (Pipeline.arrRef spec1 w)) = (datB (E2r m) c).arrAt w cfg1.N := by
  unfold E3; exact Pipeline.withArrays_arr spec1 launch1.win.arr_inj c _ _ w
theorem E3_of_ne (c : Dev nD) (b : Ref sig .tc) (hb : ∀ w, Pipeline.arrRef spec1 w ≠ b) :
    E3 m c (Proc.devRef .tc b) = E2 m c (Proc.devRef .tc b) := by
  unfold E3; exact Pipeline.withArrays_of_ne spec1 c _ _ b hb
abbrev E3r : (c : Dev nD) → (b : Ref sig .tc) → Buf (Elt F) ((c : Thread nD τ).loc b) := fun c b => E3 m c b
theorem hF1 (c : Dev nD) (w : Fin cfg1.W) : (datB (E2r m) c).arrAt w cfg1.N = E3r m c (Pipeline.arrRef spec1 w) :=
  (E3_arr m c w).symm
theorem hrest1 (c : Dev nD) : ∀ b, b ∉ Finset.univ.image (Pipeline.arrRef spec1) → E3r m c b = E2r m c b :=
  fun b hb => E3_of_ne m c b fun w e => hb (Finset.mem_image.mpr ⟨w, Finset.mem_univ _, e⟩)

/-- The host reshape writes only its own result. -/
theorem E2_of_ne (c : Dev nD) (b : Ref sig .tc) (hb : b ≠ main_v1) :
    E2 m c (Proc.devRef .tc b) = E1 m c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-! ### The arguments end as launched -/

theorem E3_main_arg0 (c : Dev nD) : E3 m c (Proc.devRef .tc main_arg0) = m ((c : Thread nD τ).loc main_arg0) :=
  calc E3 m c (Proc.devRef .tc main_arg0)
    _ = E2 m c (Proc.devRef .tc main_arg0) := E3_of_ne m c main_arg0 (by decide)
    _ = E1 m c (Proc.devRef .tc main_arg0) := E2_of_ne m c main_arg0 (by decide)
    _ = E0 m c (Proc.devRef .tc main_arg0) := (E1_arr m c 0).trans (((datA (E0r m) c).arrAt_in 0 rfl _).trans (A_eqA (E0r m) c 0))
    _ = m ((c : Thread nD τ).loc main_arg0) := rfl
theorem E3_main_arg1 (c : Dev nD) : E3 m c (Proc.devRef .tc main_arg1) = m ((c : Thread nD τ).loc main_arg1) :=
  calc E3 m c (Proc.devRef .tc main_arg1)
    _ = E2 m c (Proc.devRef .tc main_arg1) := (E3_arr m c 1).trans (((datB (E2r m) c).arrAt_in 1 rfl _).trans (A_eqB (E2r m) c 1))
    _ = E1 m c (Proc.devRef .tc main_arg1) := E2_of_ne m c main_arg1 (by decide)
    _ = E0 m c (Proc.devRef .tc main_arg1) := E1_of_ne m c main_arg1 (by decide)
    _ = m ((c : Thread nD τ).loc main_arg1) := rfl
theorem E3_main_arg2 (c : Dev nD) : E3 m c (Proc.devRef .tc main_arg2) = m ((c : Thread nD τ).loc main_arg2) :=
  calc E3 m c (Proc.devRef .tc main_arg2)
    _ = E2 m c (Proc.devRef .tc main_arg2) := E3_of_ne m c main_arg2 (by decide)
    _ = E1 m c (Proc.devRef .tc main_arg2) := E2_of_ne m c main_arg2 (by decide)
    _ = E0 m c (Proc.devRef .tc main_arg2) := E1_of_ne m c main_arg2 (by decide)
    _ = m ((c : Thread nD τ).loc main_arg2) := rfl
theorem E3_main_arg3 (c : Dev nD) : E3 m c (Proc.devRef .tc main_arg3) = m ((c : Thread nD τ).loc main_arg3) :=
  calc E3 m c (Proc.devRef .tc main_arg3)
    _ = E2 m c (Proc.devRef .tc main_arg3) := E3_of_ne m c main_arg3 (by decide)
    _ = E1 m c (Proc.devRef .tc main_arg3) := E2_of_ne m c main_arg3 (by decide)
    _ = E0 m c (Proc.devRef .tc main_arg3) := (E1_arr m c 1).trans (((datA (E0r m) c).arrAt_in 1 rfl _).trans (A_eqA (E0r m) c 1))
    _ = m ((c : Thread nD τ).loc main_arg3) := rfl

/-! ## The proof data family and the thread state -/

abbrev adm' : (p : Fin 2) → (pcfgs (F := F) p).Adm := fun p => (cfgs p).toPCfg_adm
/-- Each kernel's proof data at its entry contents. -/
def pdats : (p : Fin 2) → (c : Dev nD) → Dat τ (Elt F) Unit ℕ (UR sig nD τ) ℕ (Pipeline.pin (pcfgs (F := F)) adm' p) c
  | ⟨0, _⟩ => fun c => datA (E0r m) c
  | ⟨1, _⟩ => fun c => datB (E2r m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (E3 m c) ∗ ∃ r, prngReg c r)

/-! ## The kernels as segments -/

set_option backward.isDefEq.respectTransparency.types false in
/-- The accumulating matmul over the thread state: entered from the launch contents, left at `E1`. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligationA (E0r m) c).loose
  hwaits := Pipeline.hwaits_of_owed_zero _ _ _ _ L lv 0 fun _ _ => rfl
  pre c := iprop(StableHlo.held (c : Thread nD τ) (Pipeline.ucRefs τ sig) (E0 m c) ∗ R c)
  post c := iprop(StableHlo.held (c : Thread nD τ) (Pipeline.ucRefs τ sig) (E1 m c) ∗ R c)
  X c := iprop(∃ r, prngReg c r)
  Y c := iprop(∃ r, prngReg c r)
  Z c := Pipeline.unscopedRest (Ix := Unit) (Name := ℕ) (U := UR sig nD τ) (Lvl := ℕ) spec0 c (E0r m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (E0r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    refine (houtA (E0r m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (E0r m c) (E1r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul with bias over the thread state: entered from `E2`, left at `E3`. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligationB (E2r m) c).loose
  hwaits := Pipeline.hwaits_of_owed_zero _ _ _ _ L lv 1 fun _ _ => rfl
  pre c := iprop(StableHlo.held (c : Thread nD τ) (Pipeline.ucRefs τ sig) (E2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2r m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (E2r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (E2r m c) (E3r m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm' (pdats m) () defs₀ 𝒱₀ L lv) :=
  [ .region (reg0 m),
    .host (hseg hostOps1 hostOps1_sub hostOps1_fresh' (E1 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every unscoped buffer ends at the last boundary's contents `E3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = E3 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (E0 m c)
        from Pipeline.unscopedBufs_held c (E0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E3 m c b)
    (hfin := fun c s' => by
      iintro ⟨⟨Hh, -⟩, HSI⟩
      unfold StableHlo.held
      imodintro
      iapply (pointsTo_read_all (Pipeline.ucRefs τ sig) (fun b => (((c : Thread nD τ)).1, b)) (E3 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (E3_main_arg0 m c),
     (h c _ (mem_uc main_arg1 (by decide))).trans (E3_main_arg1 m c),
     (h c _ (mem_uc main_arg2 (by decide))).trans (E3_main_arg2 m c),
     (h c _ (mem_uc main_arg3 (by decide))).trans (E3_main_arg3 m c)⟩) (run_main m ρ)

end Cert.Kernel.Hand
end
-- ==== Proof.PadKI.lean ====
import proofs.«136431_j73967926771856_1_alg».proof.Proof.Gen.KernelIdeal.Launch
import proofs.«136431_j73967926771856_1_alg».proof.Proof.Gen.KernelIdeal.Skeleton
import proofs.«136431_j73967926771856_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
  The first kernel (an accumulating product over a grid of 32 points), as a triple per case of its two branches and as
  the per-point obligation of the pipeline that runs it.

  At every point the body loads a 64 × 256 block and a 9248 × 256 block, multiplies them (contracting the second axis of
  both) into zero, adds the 64 × 9248 scratch accumulator and stores the sum back into the accumulator. At the first point
  it first fills the accumulator with zeros; at the last point it also copies the accumulator into the output's block,
  which is the whole 64 × 9248 result and is written back there only. So after point n the accumulator holds
  `accA n = step(block n, accA (n-1))`, `accA 0 = step(block 0, zeros)` — stated here for any float instance, with the
  body's arithmetic kept as the named payloads.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The accumulating matmul's branch conditions over the grid -/

/-- The body's first branch (reset the accumulator), as the kernel computes it from the grid coordinate. -/
abbrev isFirst (i : grid0.Coords) : Prop := (Scalar.cmpi .ne (Scalar.extui (Scalar.cmpi .eq (BitVec.ofNat 32 (i 0).val) 0#32)) 0#32) = 1#1
/-- It is taken at point 0 only. -/
theorem isFirst_iff : ∀ t : Fin cfg0.N, isFirst (grid0.coords t) ↔ t.val = 0 :=
  (by decide +kernel : ∀ t : Fin grid0.N, isFirst (grid0.coords t) ↔ t.val = 0)
/-- The body's last branch (copy the accumulator out). -/
abbrev isLast (i : grid0.Coords) : Prop := k0_cond2 i = 1#1
/-- It is taken at point 31 only. -/
theorem isLast_iff : ∀ t : Fin cfg0.N, isLast (grid0.coords t) ↔ t.val = 31 :=
  (by decide +kernel : ∀ t : Fin grid0.N, isLast (grid0.coords t) ↔ t.val = 31)

/-- The zero offsets of a whole-block access. -/
theorem off2_zero : (![0, 0] : Fin 2 → Nat) = fun _ => 0 := by
  funext a; fin_cases a <;> rfl

/-- A single whole-block piece covers the block. -/
theorem cover_whole {S : Shape} {e : EltTy} {off : Fin S.rank → Nat} (h : off = fun _ => 0) (inb : ∀ a, off a + S.size a ≤ S.size a)
    (w : S.Idx → Elt F e) (y : S.Idx) :
    ∃ p ∈ ([⟨Rect.unit off S.size inb, w⟩] : List (View.Piece (Elt F) S e)), y ∈ p.1.set :=
  ⟨_, List.mem_singleton_self _, View.mem_set_unit_zero h inb y⟩

/-! ## The body of the accumulating matmul, case by case -/

set_option maxHeartbeats 1000000 in
/-- A middle point: the scratch holds the running sum `xs`; the body adds this point's product to it and stores it back. -/
theorem run_mid (c : Dev nD) (E : Set ℕ) (i : grid0.Coords)
    (arg1 : Memref sig .tc .vmem S64x256 .f32) (harg1 : arg1.IsWhole) (arg2 : Memref sig .tc .vmem S9248x256 .f32) (harg2 : arg2.IsWhole)
    (arg3 : Memref sig .tc .vmem S64x9248 .f32) (harg3 : arg3.IsWhole) (arg4 : Memref sig .tc .vmem S64x9248 .f32) (harg4 : arg4.IsWhole)
    (hf : ¬ isFirst i) (hl : ¬ isLast i)
    (x0 : Vec F S64x256 .f32) (x1 : Vec F S9248x256 .f32) (xi xs : Vec F S64x9248 .f32) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare xs
        ∗ (iprop(owns (c : Thread nD τ) arg1 fullShare x0 ∗ owns (c : Thread nD τ) arg2 fullShare x1 ∗ owns (c : Thread nD τ) arg3 fullShare xi
            ∗ owns (c : Thread nD τ) arg4 fullShare (k0_pay2 x0 x1 xs)) -∗ K ⟨⟩))
      ⊢ wp frame (wpE (defs₀ (F := F)) Variants.none c none) E (cc0__pad_matmul_kernel i arg1 harg1 arg2 harg2 arg3 harg3 arg4 harg4) K := by
  simp only [cc0__pad_matmul_kernel_eq_skeleton]; unfold cc0__pad_matmul_kernel_skel
  unfold owns
  iintro ⟨⟨%f0, %hf0, H0⟩, ⟨%f1, %hf1, H1⟩, ⟨%f3, %hf3, H3⟩, ⟨%f4, %hf4, H4⟩, Hk⟩
  subst hf0; subst hf1; subst hf3; subst hf4
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  iexists _; isplitr
  swap; · iexact H4
  ipureintro
  rw [View.read_writes_eq_canon _ _ _ (cover_whole off2_zero _ _), View.canon_unit_zero off2_zero]
  simp only [View.readAt_eq_ld, View.ld_unit_zero (S := S64x256) off2_zero, View.ld_unit_zero (S := S9248x256) off2_zero,
    View.ld_unit_zero (S := S64x9248) off2_zero]

set_option maxHeartbeats 1000000 in
/-- The first point: the scratch holds anything; the body zeroes it, adds this point's product and stores it back. -/
theorem run_first (c : Dev nD) (E : Set ℕ) (i : grid0.Coords)
    (arg1 : Memref sig .tc .vmem S64x256 .f32) (harg1 : arg1.IsWhole) (arg2 : Memref sig .tc .vmem S9248x256 .f32) (harg2 : arg2.IsWhole)
    (arg3 : Memref sig .tc .vmem S64x9248 .f32) (harg3 : arg3.IsWhole) (arg4 : Memref sig .tc .vmem S64x9248 .f32) (harg4 : arg4.IsWhole)
    (hf : isFirst i) (hl : ¬ isLast i)
    (x0 : Vec F S64x256 .f32) (x1 : Vec F S9248x256 .f32) (xi : Vec F S64x9248 .f32) (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (k0_pay2 x0 x1 (k0_pay1 (F := F)))) -∗ K ⟨⟩))
      ⊢ wp frame (wpE (defs₀ (F := F)) Variants.none c none) E (cc0__pad_matmul_kernel i arg1 harg1 arg2 harg2 arg3 harg3 arg4 harg4) K := by
  simp only [cc0__pad_matmul_kernel_eq_skeleton]; unfold cc0__pad_matmul_kernel_skel
  unfold owns
  iintro ⟨⟨%f0, %hf0, H0⟩, ⟨%f1, %hf1, H1⟩, ⟨%f3, %hf3, H3⟩, ⟨%d4, %f4, -, H4⟩, Hk⟩
  subst hf0; subst hf1; subst hf3
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  iexists _; isplitr
  swap; · iexact H4
  ipureintro
  sl_unfold_words
  rw [View.read_writes_eq_canon _ _ _ (fun y => ⟨_, List.Mem.head _, View.mem_set_unit_zero off2_zero inb_S64x9248_S64x9248_0_0 y⟩),
    View.canon_cons_unit_zero off2_zero, View.readCov_unit_zero _ off2_zero]
  simp only [View.readAt_eq_ld, View.ld_unit_zero (S := S64x256) off2_zero, View.ld_unit_zero (S := S9248x256) off2_zero]

set_option maxHeartbeats 1000000 in
/-- The last point: as a middle point, and the finished sum is copied into the output's block. -/
theorem run_last (c : Dev nD) (E : Set ℕ) (i : grid0.Coords)
    (arg1 : Memref sig .tc .vmem S64x256 .f32) (harg1 : arg1.IsWhole) (arg2 : Memref sig .tc .vmem S9248x256 .f32) (harg2 : arg2.IsWhole)
    (arg3 : Memref sig .tc .vmem S64x9248 .f32) (harg3 : arg3.IsWhole) (arg4 : Memref sig .tc .vmem S64x9248 .f32) (harg4 : arg4.IsWhole)
    (hf : ¬ isFirst i) (hl : isLast i)
    (x0 : Vec F S64x256 .f32) (x1 : Vec F S9248x256 .f32) (xs : Vec F S64x9248 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k0_pay2 x0 x1 xs)
            ∗ owns (c : Thread nD τ) arg4 fullShare (k0_pay2 x0 x1 xs)) -∗ K ⟨⟩))
      ⊢ wp frame (wpE (defs₀ (F := F)) Variants.none c none) E (cc0__pad_matmul_kernel i arg1 harg1 arg2 harg2 arg3 harg3 arg4 harg4) K := by
  simp only [cc0__pad_matmul_kernel_eq_skeleton]; unfold cc0__pad_matmul_kernel_skel
  unfold owns
  iintro ⟨⟨%f0, %hf0, H0⟩, ⟨%f1, %hf1, H1⟩, ⟨%d3, %f3, -, H3⟩, ⟨%f4, %hf4, H4⟩, Hk⟩
  subst hf0; subst hf1; subst hf4
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    sl_unfold_words
    rw [View.read_writes_eq_canon _ _ _ (cover_whole off2_zero _ _), View.canon_unit_zero off2_zero, View.readCov_unit_zero _ off2_zero]
    simp only [View.readAt_eq_ld, View.ld_unit_zero (S := S64x256) off2_zero, View.ld_unit_zero (S := S9248x256) off2_zero,
      View.ld_unit_zero (S := S64x9248) off2_zero]
  iexists _; isplitr
  swap; · iexact H4
  ipureintro
  sl_unfold_words
  rw [View.read_writes_eq_canon _ _ _ (cover_whole off2_zero _ _), View.canon_unit_zero off2_zero]
  simp only [View.readAt_eq_ld, View.ld_unit_zero (S := S64x256) off2_zero, View.ld_unit_zero (S := S9248x256) off2_zero,
    View.ld_unit_zero (S := S64x9248) off2_zero]

/-! ## Where the windows of the accumulating matmul are idle -/

theorem live0_0 : ∀ t : Fin cfg0.N, cfg0.idle 0 (grid0.coords t) = false := by decide +kernel
theorem live0_1 : ∀ t : Fin cfg0.N, cfg0.idle 1 (grid0.coords t) = false := by decide +kernel
/-- Away from the last point the output's block is neither stored into nor written back. -/
theorem idle0_2 : ∀ t : Fin cfg0.N, ¬ isLast (grid0.coords t) → cfg0.idle 2 (grid0.coords t) = true := by decide +kernel
theorem noFlush0_2 : ∀ t : Fin cfg0.N, ¬ isLast (grid0.coords t) → (cfg0.win 2).flush t = false := by decide +kernel
/-- At the last point it is stored. -/
theorem live0_2 : ∀ t : Fin cfg0.N, isLast (grid0.coords t) → cfg0.idle 2 (grid0.coords t) = false := by decide +kernel

section Regions
-- the TensorCore's buffer contents when a region is entered
variable (V : (c : Dev nD) → (b : Ref sig .tc) → Buf (Elt F) ((c : Thread nD τ).loc b))

/-! # The accumulating matmul (region 0) at entry contents `V` -/

/-- Window `w`'s block at point `t`: columns `256 t … 256 t + 255` of the window's array. -/
def blkA (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point. -/
theorem beforeA_0_of {c : Dev nD} (dat : Dat τ (Elt F) Unit ℕ (UR sig nD τ) ℕ cfg0 c) (hA : dat.A 0 = V c (Pipeline.arrRef spec0 0))
    (hafter : ∀ t, dat.after 0 t = blkA V c 0 t) (t : Fin cfg0.N) (d) : dat.before 0 t d = blkA V c 0 t :=
  (dat.before_in_eq_fetched 0 rfl (fun _ => rfl) (fun _ _ _ => rfl) (fun t => by rw [hafter]; unfold Dat.blockOf blkA; rw [hA]; try rfl) t d).trans
    (by unfold Dat.fetched Dat.blockOf blkA; rw [hA]; try rfl)
theorem beforeA_1_of {c : Dev nD} (dat : Dat τ (Elt F) Unit ℕ (UR sig nD τ) ℕ cfg0 c) (hA : dat.A 1 = V c (Pipeline.arrRef spec0 1))
    (hafter : ∀ t, dat.after 1 t = blkA V c 1 t) (t : Fin cfg0.N) (d) : dat.before 1 t d = blkA V c 1 t :=
  (dat.before_in_eq_fetched 1 rfl (fun _ => rfl) (fun _ _ _ => rfl) (fun t => by rw [hafter]; unfold Dat.blockOf blkA; rw [hA]; try rfl) t d).trans
    (by unfold Dat.fetched Dat.blockOf blkA; rw [hA]; try rfl)

/-- THE RUNNING SUM: what the scratch accumulator holds after point `n` — zero plus the products of the column blocks
    `0 … n` of the two operands. -/
def accA (c : Dev nD) : (n : ℕ) → n < cfg0.N → Vec F S64x9248 .f32
  | 0, hn => k0_pay2 (blkA V c 0 ⟨0, hn⟩) (blkA V c 1 ⟨0, hn⟩) (k0_pay1 (F := F))
  | n + 1, hn => k0_pay2 (blkA V c 0 ⟨n + 1, hn⟩) (blkA V c 1 ⟨n + 1, hn⟩) (accA c n (Nat.lt_of_succ_lt hn))

theorem accA_first (c : Dev nD) (t : Fin cfg0.N) (h : t.val = 0) :
    accA V c t.val t.isLt = k0_pay2 (blkA V c 0 t) (blkA V c 1 t) (k0_pay1 (F := F)) := by
  obtain ⟨n, hn⟩ := t
  cases n with
  | zero => rfl
  | succ n => exact absurd h (Nat.succ_ne_zero n)

theorem accA_later (c : Dev nD) (t : Fin cfg0.N) (h : t.val ≠ 0) :
    accA V c t.val t.isLt = k0_pay2 (blkA V c 0 t) (blkA V c 1 t) (accA V c (t.val - 1) (Nat.lt_of_le_of_lt (Nat.sub_le _ _) t.isLt)) := by
  obtain ⟨n, hn⟩ := t
  cases n with
  | zero => exact absurd rfl h
  | succ n => rfl

/-- The scratch accumulator as a memref. -/
abbrev scr : Memref sig .tc .vmem S64x9248 .f32 := Memref.whole cc0_scratch0

/-- The core's other scoped buffers (the second kernel's staging buffers), each at some contents. -/
def restB (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region's resting invariant with the accumulator singled out. -/
theorem PhiA0_eq (c : Dev nD) :
    (Pipeline.ΦA spec0 c : sProp 𝕄)
      = iprop(iprop((∃ d, owns (c : Thread nD τ) scr fullShare d) ∗ restB (F := F) c) ∗ (∃ r, prngReg c r)) := by
  unfold Pipeline.ΦA restB; rw [scopedRest0_eq]; simp only [scr, owns_whole]; try rfl

/-- The invariant before position `n`: before the first point the accumulator holds anything; afterwards the running sum
    the point before left. -/
def PhiAcc (c : Dev nD) : (n : ℕ) → n ≤ cfg0.N → sProp 𝕄
  | 0, _ => Pipeline.ΦA spec0 c
  | n + 1, hn => iprop(iprop(owns (c : Thread nD τ) scr fullShare (accA V c n hn) ∗ restB (F := F) c) ∗ (∃ r, prngReg c r))

theorem PhiAcc_zero (c : Dev nD) (n : ℕ) (h : n ≤ cfg0.N) (hz : n = 0) : PhiAcc V c n h = Pipeline.ΦA spec0 c := by
  subst hz; rfl
theorem PhiAcc_succ (c : Dev nD) (n : ℕ) (hn : n < cfg0.N) :
    PhiAcc V c (n + 1) hn = iprop(iprop(owns (c : Thread nD τ) scr fullShare (accA V c n hn) ∗ restB (F := F) c) ∗ (∃ r, prngReg c r)) := rfl
theorem PhiAcc_pos (c : Dev nD) (n : ℕ) (h : n ≤ cfg0.N) (hz : n ≠ 0) :
    PhiAcc V c n h = iprop(iprop(owns (c : Thread nD τ) scr fullShare (accA V c (n - 1) (by omega)) ∗ restB (F := F) c) ∗ (∃ r, prngReg c r)) := by
  cases n with
  | zero => exact absurd rfl hz
  | succ n => rfl

/-- The proof data of the accumulating matmul: the arrays as the region finds them; each input's buffer at its block; the
    output's buffer (where it is stored) at the running sum; the invariant carrying the accumulator. -/
def datA (c : Dev nD) : Dat τ (Elt F) Unit ℕ (UR sig nD τ) ℕ cfg0 c where
  A w := V c (Pipeline.arrRef spec0 w)
  after w t := match w with
    | ⟨0, _⟩ => blkA V c 0 t
    | ⟨1, _⟩ => blkA V c 1 t
    | ⟨2, _⟩ => accA V c t.val t.isLt
  Φ t := PhiAcc V c t.val (Nat.le_of_lt_succ t.isLt)
  q _ := fullShare
  owed _ := 0

theorem A_eqA (c : Dev nD) (w : Fin cfg0.W) : (datA V c).A w = V c (Pipeline.arrRef spec0 w) := by
  dsimp only [datA]
theorem PhiAcc_castSucc (c : Dev nD) (t : Fin cfg0.N) :
    (datA V c).Φ t.castSucc = PhiAcc V c t.val (Nat.le_of_lt t.isLt) := by
  dsimp only [datA]; simp only [Fin.coe_castSucc]
theorem afterA_0 (c : Dev nD) (t : Fin cfg0.N) : (datA V c).after 0 t = blkA V c 0 t := by dsimp only [datA]
theorem afterA_1 (c : Dev nD) (t : Fin cfg0.N) : (datA V c).after 1 t = blkA V c 1 t := by dsimp only [datA]
theorem afterA_2 (c : Dev nD) (t : Fin cfg0.N) : (datA V c).after 2 t = accA V c t.val t.isLt := by dsimp only [datA]
theorem beforeA_0 (c : Dev nD) (t : Fin cfg0.N) (d) : (datA V c).before 0 t d = blkA V c 0 t :=
  beforeA_0_of V (datA V c) (A_eqA V c 0) (afterA_0 V c) t d
theorem beforeA_1 (c : Dev nD) (t : Fin cfg0.N) (d) : (datA V c).before 1 t d = blkA V c 1 t :=
  beforeA_1_of V (datA V c) (A_eqA V c 1) (afterA_1 V c) t d

/-- What the body is called with at point `t`, -/
def bodyPreA (c : Dev nD) (t : Fin cfg0.N) : sProp 𝕄 :=
  iprop((datA V c).Φ t.castSucc ∗ (datA V c).owesAt () t.castSucc
    ∗ (∃ d, owns (c : Thread nD τ) (st0_0 t) fullShare ((datA V c).before 0 t d))
    ∗ (∃ d, owns (c : Thread nD τ) (st0_1 t) fullShare ((datA V c).before 1 t d))
    ∗ (∃ d, owns (c : Thread nD τ) (st0_2 t) fullShare ((datA V c).before 2 t d)))

/-- and what it returns. -/
def bodyPostA (c : Dev nD) (t : Fin cfg0.N) : sProp 𝕄 :=
  iprop((datA V c).Φ t.succ ∗ (datA V c).owesAt () t.succ
    ∗ (datA V c).leavesExact 0 t
    ∗ (datA V c).leavesExact 1 t
    ∗ (datA V c).leavesExact 2 t)

set_option maxHeartbeats 4000000 in
/-- The body at any point: first, middle or last, by the point's number. -/
theorem sound_bodyA (c : Dev nD) (t : Fin cfg0.N) :
    bodyPreA V c t ⊢ wp frame (wpE (defs₀ (F := F)) Variants.none c none) Set.univ (bodyAt0 t) (fun _ => bodyPostA V c t) := by
  unfold bodyPreA bodyPostA bodyAt0
  simp only [beforeA_0, beforeA_1]
  rw [show (datA V c).owesAt () t.succ = (datA V c).owesAt () t.castSucc from rfl]
  rw [show (datA V c).Φ t.succ = PhiAcc V c (t.val + 1) t.isLt from rfl, PhiAcc_succ]
  have hN : t.val < 32 := lt_of_lt_of_eq t.isLt (show cfg0.N = 32 from N_0)
  rw [show (datA V c).leavesExact 0 t = owns (c : Thread nD τ) (st0_0 t) fullShare ((datA V c).after 0 t) from by
    unfold Dat.leavesExact; rw [live0_0 t], afterA_0]
  rw [show (datA V c).leavesExact 1 t = owns (c : Thread nD τ) (st0_1 t) fullShare ((datA V c).after 1 t) from by
    unfold Dat.leavesExact; rw [live0_1 t], afterA_1]
  by_cases h0 : t.val = 0
  · have hf : isFirst (grid0.coords t) := (isFirst_iff t).mpr h0
    have hl : ¬ isLast (grid0.coords t) := fun h => by have := (isLast_iff t).mp h; omega
    rw [Dat.leavesExact_idle (datA V c) 2 t (idle0_2 t hl) (noFlush0_2 t hl)]
    rw [accA_first V c t h0]
    rw [PhiAcc_castSucc V c t, PhiAcc_zero V c _ _ h0, PhiA0_eq]
    iintro ⟨⟨⟨HS, HR⟩, Hg⟩, Ho, ⟨%d0, H0⟩, ⟨%d1, H1⟩, ⟨%d2, H2⟩⟩
    iapply (run_first c Set.univ (grid0.coords t) _ _ _ _ _ _ _ _ hf hl (blkA V c 0 t) (blkA V c 1 t) _ _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · by_cases h1 : t.val = 31
    · have hf : ¬ isFirst (grid0.coords t) := fun h => h0 ((isFirst_iff t).mp h)
      have hl : isLast (grid0.coords t) := (isLast_iff t).mpr h1
      rw [show (datA V c).leavesExact 2 t = owns (c : Thread nD τ) (st0_2 t) fullShare ((datA V c).after 2 t) from by
        unfold Dat.leavesExact; rw [live0_2 t hl], afterA_2]
      rw [accA_later V c t h0]
      rw [PhiAcc_castSucc V c t, PhiAcc_pos V c _ _ h0]
      iintro ⟨⟨⟨HS, HR⟩, Hg⟩, Ho, ⟨%d0, H0⟩, ⟨%d1, H1⟩, ⟨%d2, H2⟩⟩
      iapply (run_last c Set.univ (grid0.coords t) _ _ _ _ _ _ _ _ hf hl (blkA V c 0 t) (blkA V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · have hf : ¬ isFirst (grid0.coords t) := fun h => h0 ((isFirst_iff t).mp h)
      have hl : ¬ isLast (grid0.coords t) := fun h => h1 ((isLast_iff t).mp h)
      rw [Dat.leavesExact_idle (datA V c) 2 t (idle0_2 t hl) (noFlush0_2 t hl)]
      rw [accA_later V c t h0]
      rw [PhiAcc_castSucc V c t, PhiAcc_pos V c _ _ h0]
      iintro ⟨⟨⟨HS, HR⟩, Hg⟩, Ho, ⟨%d0, H0⟩, ⟨%d1, H1⟩, ⟨%d2, H2⟩⟩
      iapply (run_mid c Set.univ (grid0.coords t) _ _ _ _ _ _ _ _ hf hl (blkA V c 0 t) (blkA V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligationA (c : Dev nD) : BodyObligation (datA (F := F) V c) (defs₀ (F := F)) Variants.none () Set.univ := fun t => by
  rw [bigSep_W0, bigSep_W0]
  exact sound_bodyA V c t

/-- What the launch hands the region is the invariant before the first point. -/
theorem hinA (c : Dev nD) : Pipeline.ΦA spec0 c ⊢ (datA V c).Φ 0 := by
  rw [show (datA V c).Φ 0 = PhiAcc V c 0 (Nat.zero_le _) from rfl, PhiAcc_zero V c 0 _ rfl]
  try exact Idealize.SL.BI.Entails.refl _

/-- After the last point the invariant gives the resting one back: the accumulator's contents are forgotten. -/
theorem houtA (c : Dev nD) : (datA V c).Φ (Fin.last cfg0.N) ⊢ Pipeline.ΦA spec0 c := by
  rw [show (datA V c).Φ (Fin.last cfg0.N) = PhiAcc V c (Fin.last cfg0.N).val (Nat.le_of_lt_succ (Fin.last cfg0.N).isLt) from rfl,
    PhiAcc_pos V c _ _ (by rw [Fin.val_last]; have : cfg0.N = 32 := N_0; omega), PhiA0_eq]
  iintro ⟨⟨HS, HR⟩, Hg⟩
  isplitl [HS HR]
  · isplitl [HS]
    · iexists _; iexact HS
    iexact HR
  iexact Hg

end Regions

end Cert.KernelIdeal.Hand
end
-- ==== Proof.BiasKI.lean ====
import proofs.«136431_j73967926771856_1_alg».proof.Proof.PadKI

/-!
  The second kernel (a product plus a row vector over a grid of 64 points): at every point the body loads the whole
  64 × 9248 operand, a 256 × 9248 block and a 1 × 256 block, and stores their product (contracting the second axis of both)
  plus the row spread over the 64 rows, whole, into the output's 64 × 256 block. Nothing is carried between points.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The matmul with bias (region 1) -/

set_option maxHeartbeats 1000000 in
/-- The body: the three input blocks are read, their product plus the spread bias row is stored whole into the output's block. -/
theorem run_bias (c : Dev nD) (E : Set ℕ) (i : grid1.Coords)
    (arg1 : Memref sig .tc .vmem S64x9248 .f32) (harg1 : arg1.IsWhole) (arg2 : Memref sig .tc .vmem S256x9248 .f32) (harg2 : arg2.IsWhole)
    (arg3 : Memref sig .tc .vmem S1x256 .f32) (harg3 : arg3.IsWhole) (arg4 : Memref sig .tc .vmem S64x256 .f32) (harg4 : arg4.IsWhole)
    (x0 : Vec F S64x9248 .f32) (x1 : Vec F S256x9248 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay1 x0 x1 x2)) -∗ K ⟨⟩))
      ⊢ wp frame (wpE (defs₀ (F := F)) Variants.none c none) E (cc1__weight_matmul_kernel i arg1 harg1 arg2 harg2 arg3 harg3 arg4 harg4) K := by
  simp only [cc1__weight_matmul_kernel_eq_skeleton]; unfold cc1__weight_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (cover_whole off2_zero _ _), View.canon_unit_zero off2_zero]
  simp only [View.readAt_eq_ld, View.ld_unit_zero (S := S64x9248) off2_zero, View.ld_unit_zero (S := S256x9248) off2_zero,
    View.ld_unit_zero (S := S1x256) off2_zero]

section Regions
variable (V : (c : Dev nD) → (b : Ref sig .tc) → Buf (Elt F) ((c : Thread nD τ).loc b))

/-- Window `w`'s block at point `t`. -/
def blkB (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem beforeB_0_of {c : Dev nD} (dat : Dat τ (Elt F) Unit ℕ (UR sig nD τ) ℕ cfg1 c) (hA : dat.A 0 = V c (Pipeline.arrRef spec1 0))
    (hafter : ∀ t, dat.after 0 t = blkB V c 0 t) (t : Fin cfg1.N) (d) : dat.before 0 t d = blkB V c 0 t :=
  (dat.before_in_eq_fetched 0 rfl (fun _ => rfl) (fun _ _ _ => rfl) (fun t => by rw [hafter]; unfold Dat.blockOf blkB; rw [hA]; try rfl) t d).trans
    (by unfold Dat.fetched Dat.blockOf blkB; rw [hA]; try rfl)
theorem beforeB_1_of {c : Dev nD} (dat : Dat τ (Elt F) Unit ℕ (UR sig nD τ) ℕ cfg1 c) (hA : dat.A 1 = V c (Pipeline.arrRef spec1 1))
    (hafter : ∀ t, dat.after 1 t = blkB V c 1 t) (t : Fin cfg1.N) (d) : dat.before 1 t d = blkB V c 1 t :=
  (dat.before_in_eq_fetched 1 rfl (fun _ => rfl) (fun _ _ _ => rfl) (fun t => by rw [hafter]; unfold Dat.blockOf blkB; rw [hA]; try rfl) t d).trans
    (by unfold Dat.fetched Dat.blockOf blkB; rw [hA]; try rfl)
theorem beforeB_2_of {c : Dev nD} (dat : Dat τ (Elt F) Unit ℕ (UR sig nD τ) ℕ cfg1 c) (hA : dat.A 2 = V c (Pipeline.arrRef spec1 2))
    (hafter : ∀ t, dat.after 2 t = blkB V c 2 t) (t : Fin cfg1.N) (d) : dat.before 2 t d = blkB V c 2 t :=
  (dat.before_in_eq_fetched 2 rfl (fun _ => rfl) (fun _ _ _ => rfl) (fun t => by rw [hafter]; unfold Dat.blockOf blkB; rw [hA]; try rfl) t d).trans
    (by unfold Dat.fetched Dat.blockOf blkB; rw [hA]; try rfl)

/-- The proof data: each input's buffer at its block, the output's at the body's result of the three blocks. -/
def datB (c : Dev nD) : Dat τ (Elt F) Unit ℕ (UR sig nD τ) ℕ cfg1 c where
  A w := V c (Pipeline.arrRef spec1 w)
  after w t := match w with
    | ⟨0, _⟩ => blkB V c 0 t
    | ⟨1, _⟩ => blkB V c 1 t
    | ⟨2, _⟩ => blkB V c 2 t
    | ⟨3, _⟩ => k1_pay1 (blkB V c 0 t) (blkB V c 1 t) (blkB V c 2 t)
  Φ _ := Pipeline.ΦA spec1 c
  q _ := fullShare
  owed _ := 0

theorem A_eqB (c : Dev nD) (w : Fin cfg1.W) : (datB V c).A w = V c (Pipeline.arrRef spec1 w) := by
  dsimp only [datB]
theorem afterB_0 (c : Dev nD) (t : Fin cfg1.N) : (datB V c).after 0 t = blkB V c 0 t := by dsimp only [datB]
theorem afterB_1 (c : Dev nD) (t : Fin cfg1.N) : (datB V c).after 1 t = blkB V c 1 t := by dsimp only [datB]
theorem afterB_2 (c : Dev nD) (t : Fin cfg1.N) : (datB V c).after 2 t = blkB V c 2 t := by dsimp only [datB]
theorem afterB_3 (c : Dev nD) (t : Fin cfg1.N) : (datB V c).after 3 t = k1_pay1 (blkB V c 0 t) (blkB V c 1 t) (blkB V c 2 t) := by dsimp only [datB]
theorem beforeB_0 (c : Dev nD) (t : Fin cfg1.N) (d) : (datB V c).before 0 t d = blkB V c 0 t :=
  beforeB_0_of V (datB V c) (A_eqB V c 0) (afterB_0 V c) t d
theorem beforeB_1 (c : Dev nD) (t : Fin cfg1.N) (d) : (datB V c).before 1 t d = blkB V c 1 t :=
  beforeB_1_of V (datB V c) (A_eqB V c 1) (afterB_1 V c) t d
theorem beforeB_2 (c : Dev nD) (t : Fin cfg1.N) (d) : (datB V c).before 2 t d = blkB V c 2 t :=
  beforeB_2_of V (datB V c) (A_eqB V c 2) (afterB_2 V c) t d

def bodyPreB (c : Dev nD) (t : Fin cfg1.N) : sProp 𝕄 :=
  iprop((datB V c).Φ t.castSucc ∗ (datB V c).owesAt () t.castSucc
    ∗ (∃ d, owns (c : Thread nD τ) (st1_0 t) fullShare ((datB V c).before 0 t d))
    ∗ (∃ d, owns (c : Thread nD τ) (st1_1 t) fullShare ((datB V c).before 1 t d))
    ∗ (∃ d, owns (c : Thread nD τ) (st1_2 t) fullShare ((datB V c).before 2 t d))
    ∗ (∃ d, owns (c : Thread nD τ) (st1_3 t) fullShare ((datB V c).before 3 t d)))

def bodyPostB (c : Dev nD) (t : Fin cfg1.N) : sProp 𝕄 :=
  iprop((datB V c).Φ t.succ ∗ (datB V c).owesAt () t.succ
    ∗ owns (c : Thread nD τ) (st1_0 t) fullShare ((datB V c).after 0 t)
    ∗ owns (c : Thread nD τ) (st1_1 t) fullShare ((datB V c).after 1 t)
    ∗ owns (c : Thread nD τ) (st1_2 t) fullShare ((datB V c).after 2 t)
    ∗ owns (c : Thread nD τ) (st1_3 t) fullShare ((datB V c).after 3 t))

theorem sound_bodyB (c : Dev nD) (t : Fin cfg1.N) :
    bodyPreB V c t ⊢ wp frame (wpE (defs₀ (F := F)) Variants.none c none) Set.univ (bodyAt1 t) (fun _ => bodyPostB V c t) := by
  unfold bodyPreB bodyPostB bodyAt1
  simp only [beforeB_0, beforeB_1, beforeB_2]
  rw [show (datB V c).Φ t.succ = (datB V c).Φ t.castSucc from rfl,
    show (datB V c).owesAt () t.succ = (datB V c).owesAt () t.castSucc from rfl,
    afterB_0, afterB_1, afterB_2, afterB_3]
  iintro ⟨HΦ, Ho, ⟨%d0, H0⟩, ⟨%d1, H1⟩, ⟨%d2, H2⟩, ⟨%d3, H3⟩⟩
  iapply (run_bias c Set.univ (grid1.coords t) _ _ _ _ _ _ _ _ (blkB V c 0 t) (blkB V c 1 t) (blkB V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligationB (c : Dev nD) : BodyObligation (datB (F := F) V c) (defs₀ (F := F)) Variants.none () Set.univ := fun t => by
  rw [bigSep_W1, bigSep_W1]
  exact sound_bodyB V c t

end Regions

end Cert.KernelIdeal.Hand
end
-- ==== Proof.RunKI.lean ====
import proofs.«136431_j73967926771856_1_alg».proof.Proof.BiasKI

/-!
  The whole run: the first kernel, the host reshape of the vector to one row, the second kernel — each entered from the
  contents the one before left. The contents at the four boundaries are named `E0` (launch) … `E3` (end); each kernel
  changes only its own result array, the reshape only its own result, so the four arguments end as launched, and the result
  array ends at what the second kernel's write-backs leave.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: the buffers' contents at each boundary of @main -/

/-- Core `c`'s buffers at launch (the first kernel's entry). -/
abbrev E0 : Dev nD → Valuation τ sig (Elt F) := fun c b => m (c, b)
abbrev E0r : (c : Dev nD) → (b : Ref sig .tc) → Buf (Elt F) ((c : Thread nD τ).loc b) := fun c b => E0 m c b
/-- After the first kernel: its arrays at what its write-backs leave, every other buffer as entered. -/
def E1 (c : Dev nD) : Valuation τ sig (Elt F) :=
  Pipeline.withArrays spec0 c (E0 m c) fun w => (datA (E0r m) c).arrAt w cfg0.N
theorem E1_arr (c : Dev nD) (w : Fin cfg0.W) :
    E1 m c (Proc.devRef .tc (Pipeline.arrRef spec0 w)) = (datA (E0r m) c).arrAt w cfg0.N := by
  unfold E1; exact Pipeline.withArrays_arr spec0 launch0.win.arr_inj c _ _ w
theorem E1_of_ne (c : Dev nD) (b : Ref sig .tc) (hb : ∀ w, Pipeline.arrRef spec0 w ≠ b) :
    E1 m c (Proc.devRef .tc b) = E0 m c (Proc.devRef .tc b) := by
  unfold E1; exact Pipeline.withArrays_of_ne spec0 c _ _ b hb
abbrev E1r : (c : Dev nD) → (b : Ref sig .tc) → Buf (Elt F) ((c : Thread nD τ).loc b) := fun c b => E1 m c b
theorem hF0 (c : Dev nD) (w : Fin cfg0.W) : (datA (E0r m) c).arrAt w cfg0.N = E1r m c (Pipeline.arrRef spec0 w) :=
  (E1_arr m c w).symm
theorem hrest0 (c : Dev nD) : ∀ b, b ∉ Finset.univ.image (Pipeline.arrRef spec0) → E1r m c b = E0r m c b :=
  fun b hb => E1_of_ne m c b fun w e => hb (Finset.mem_image.mpr ⟨w, Finset.mem_univ _, e⟩)

/-- After the host reshape of the bias (the second kernel's entry). -/
abbrev E2 : Dev nD → Valuation τ sig (Elt F) := fun c => StableHlo.after hostOps1 (E1 m c)
abbrev E2r : (c : Dev nD) → (b : Ref sig .tc) → Buf (Elt F) ((c : Thread nD τ).loc b) := fun c b => E2 m c b
/-- After the second kernel. -/
def E3 (c : Dev nD) : Valuation τ sig (Elt F) :=
  Pipeline.withArrays spec1 c (E2 m c) fun w => (datB (E2r m) c).arrAt w cfg1.N
theorem E3_arr (c : Dev nD) (w : Fin cfg1.W) :
    E3 m c (Proc.devRef .tc (Pipeline.arrRef spec1 w)) = (datB (E2r m) c).arrAt w cfg1.N := by
  unfold E3; exact Pipeline.withArrays_arr spec1 launch1.win.arr_inj c _ _ w
theorem E3_of_ne (c : Dev nD) (b : Ref sig .tc) (hb : ∀ w, Pipeline.arrRef spec1 w ≠ b) :
    E3 m c (Proc.devRef .tc b) = E2 m c (Proc.devRef .tc b) := by
  unfold E3; exact Pipeline.withArrays_of_ne spec1 c _ _ b hb
abbrev E3r : (c : Dev nD) → (b : Ref sig .tc) → Buf (Elt F) ((c : Thread nD τ).loc b) := fun c b => E3 m c b
theorem hF1 (c : Dev nD) (w : Fin cfg1.W) : (datB (E2r m) c).arrAt w cfg1.N = E3r m c (Pipeline.arrRef spec1 w) :=
  (E3_arr m c w).symm
theorem hrest1 (c : Dev nD) : ∀ b, b ∉ Finset.univ.image (Pipeline.arrRef spec1) → E3r m c b = E2r m c b :=
  fun b hb => E3_of_ne m c b fun w e => hb (Finset.mem_image.mpr ⟨w, Finset.mem_univ _, e⟩)

/-- The host reshape writes only its own result. -/
theorem E2_of_ne (c : Dev nD) (b : Ref sig .tc) (hb : b ≠ main_v1) :
    E2 m c (Proc.devRef .tc b) = E1 m c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-! ### The arguments end as launched -/

theorem E3_main_arg0 (c : Dev nD) : E3 m c (Proc.devRef .tc main_arg0) = m ((c : Thread nD τ).loc main_arg0) :=
  calc E3 m c (Proc.devRef .tc main_arg0)
    _ = E2 m c (Proc.devRef .tc main_arg0) := E3_of_ne m c main_arg0 (by decide)
    _ = E1 m c (Proc.devRef .tc main_arg0) := E2_of_ne m c main_arg0 (by decide)
    _ = E0 m c (Proc.devRef .tc main_arg0) := (E1_arr m c 0).trans (((datA (E0r m) c).arrAt_in 0 rfl _).trans (A_eqA (E0r m) c 0))
    _ = m ((c : Thread nD τ).loc main_arg0) := rfl
theorem E3_main_arg1 (c : Dev nD) : E3 m c (Proc.devRef .tc main_arg1) = m ((c : Thread nD τ).loc main_arg1) :=
  calc E3 m c (Proc.devRef .tc main_arg1)
    _ = E2 m c (Proc.devRef .tc main_arg1) := (E3_arr m c 1).trans (((datB (E2r m) c).arrAt_in 1 rfl _).trans (A_eqB (E2r m) c 1))
    _ = E1 m c (Proc.devRef .tc main_arg1) := E2_of_ne m c main_arg1 (by decide)
    _ = E0 m c (Proc.devRef .tc main_arg1) := E1_of_ne m c main_arg1 (by decide)
    _ = m ((c : Thread nD τ).loc main_arg1) := rfl
theorem E3_main_arg2 (c : Dev nD) : E3 m c (Proc.devRef .tc main_arg2) = m ((c : Thread nD τ).loc main_arg2) :=
  calc E3 m c (Proc.devRef .tc main_arg2)
    _ = E2 m c (Proc.devRef .tc main_arg2) := E3_of_ne m c main_arg2 (by decide)
    _ = E1 m c (Proc.devRef .tc main_arg2) := E2_of_ne m c main_arg2 (by decide)
    _ = E0 m c (Proc.devRef .tc main_arg2) := E1_of_ne m c main_arg2 (by decide)
    _ = m ((c : Thread nD τ).loc main_arg2) := rfl
theorem E3_main_arg3 (c : Dev nD) : E3 m c (Proc.devRef .tc main_arg3) = m ((c : Thread nD τ).loc main_arg3) :=
  calc E3 m c (Proc.devRef .tc main_arg3)
    _ = E2 m c (Proc.devRef .tc main_arg3) := E3_of_ne m c main_arg3 (by decide)
    _ = E1 m c (Proc.devRef .tc main_arg3) := E2_of_ne m c main_arg3 (by decide)
    _ = E0 m c (Proc.devRef .tc main_arg3) := (E1_arr m c 1).trans (((datA (E0r m) c).arrAt_in 1 rfl _).trans (A_eqA (E0r m) c 1))
    _ = m ((c : Thread nD τ).loc main_arg3) := rfl

/-! ## The proof data family and the thread state -/

abbrev adm' : (p : Fin 2) → (pcfgs (F := F) p).Adm := fun p => (cfgs p).toPCfg_adm
/-- Each kernel's proof data at its entry contents. -/
def pdats : (p : Fin 2) → (c : Dev nD) → Dat τ (Elt F) Unit ℕ (UR sig nD τ) ℕ (Pipeline.pin (pcfgs (F := F)) adm' p) c
  | ⟨0, _⟩ => fun c => datA (E0r m) c
  | ⟨1, _⟩ => fun c => datB (E2r m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (E3 m c) ∗ ∃ r, prngReg c r)

/-! ## The kernels as segments -/

set_option backward.isDefEq.respectTransparency.types false in
/-- The accumulating matmul over the thread state: entered from the launch contents, left at `E1`. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligationA (E0r m) c).loose
  hwaits := Pipeline.hwaits_of_owed_zero _ _ _ _ L lv 0 fun _ _ => rfl
  pre c := iprop(StableHlo.held (c : Thread nD τ) (Pipeline.ucRefs τ sig) (E0 m c) ∗ R c)
  post c := iprop(StableHlo.held (c : Thread nD τ) (Pipeline.ucRefs τ sig) (E1 m c) ∗ R c)
  X c := iprop(∃ r, prngReg c r)
  Y c := iprop(∃ r, prngReg c r)
  Z c := Pipeline.unscopedRest (Ix := Unit) (Name := ℕ) (U := UR sig nD τ) (Lvl := ℕ) spec0 c (E0r m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (E0r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    refine (houtA (E0r m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (E0r m c) (E1r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul with bias over the thread state: entered from `E2`, left at `E3`. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligationB (E2r m) c).loose
  hwaits := Pipeline.hwaits_of_owed_zero _ _ _ _ L lv 1 fun _ _ => rfl
  pre c := iprop(StableHlo.held (c : Thread nD τ) (Pipeline.ucRefs τ sig) (E2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2r m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (E2r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (E2r m c) (E3r m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm' (pdats m) () defs₀ 𝒱₀ L lv) :=
  [ .region (reg0 m),
    .host (hseg hostOps1 hostOps1_sub hostOps1_fresh' (E1 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every unscoped buffer ends at the last boundary's contents `E3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = E3 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (E0 m c)
        from Pipeline.unscopedBufs_held c (E0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E3 m c b)
    (hfin := fun c s' => by
      iintro ⟨⟨Hh, -⟩, HSI⟩
      unfold StableHlo.held
      imodintro
      iapply (pointsTo_read_all (Pipeline.ucRefs τ sig) (fun b => (((c : Thread nD τ)).1, b)) (E3 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (E3_main_arg0 m c),
     (h c _ (mem_uc main_arg1 (by decide))).trans (E3_main_arg1 m c),
     (h c _ (mem_uc main_arg2 (by decide))).trans (E3_main_arg2 m c),
     (h c _ (mem_uc main_arg3 (by decide))).trans (E3_main_arg3 m c)⟩) (run_main m ρ)

end Cert.KernelIdeal.Hand
end
-- ==== Proof.Payload.lean ====
import proofs.«136431_j73967926771856_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
  The two kernels' arithmetic read at one entry, over the extended reals.

  * The accumulating step: entry (p, q) of the new running sum is the old entry plus the dot product of row p of the
    64×256 block with row q of the 9248×256 block (both operands are contracted along their second axis; the change of
    float format before the product is the identity here).
  * The second kernel's block: entry (p, q) is the dot product of row p of the 64×9248 operand with row q of the
    256×9248 block, plus entry q of the bias row.
-/

noncomputable section

namespace Cert.KernelIdeal.Val

open Idealize.ShloMosaic Idealize.ShloMosaic.ValueIdx Cert.KernelIdeal Cert.KernelIdeal.Gen
open scoped BigOperators

/-! ## The contraction indices of the two products -/

theorem padL0 (i : S64x9248.Idx) (q : dot_S64x256_S9248x256_S64x9248_1_1_0_0_n_n.contr.Idx) :
    (dot_S64x256_S9248x256_S64x9248_1_1_0_0_n_n.lhsIdx i q 0).val = (i 0).val := by
  unfold DotDims.lhsIdx
  rw [dif_neg (show ¬(0 : Fin S64x256.rank) ∈ dot_S64x256_S9248x256_S64x9248_1_1_0_0_n_n.lhsBatch by decide), dif_pos (show (0 : Fin S64x256.rank) ∈ dot_S64x256_S9248x256_S64x9248_1_1_0_0_n_n.lhsNonContracting by decide)]
  rfl
theorem padL1 (i : S64x9248.Idx) (q : dot_S64x256_S9248x256_S64x9248_1_1_0_0_n_n.contr.Idx) :
    (dot_S64x256_S9248x256_S64x9248_1_1_0_0_n_n.lhsIdx i q 1).val = (q ⟨0, by decide⟩).val :=
  dot_S64x256_S9248x256_S64x9248_1_1_0_0_n_n.lhsIdx_val_of_single rfl i q
theorem padR0 (i : S64x9248.Idx) (q : dot_S64x256_S9248x256_S64x9248_1_1_0_0_n_n.contr.Idx) :
    (dot_S64x256_S9248x256_S64x9248_1_1_0_0_n_n.rhsIdx i q 0).val = (i 1).val := by
  unfold DotDims.rhsIdx
  rw [dif_neg (show ¬(0 : Fin S9248x256.rank) ∈ dot_S64x256_S9248x256_S64x9248_1_1_0_0_n_n.rhsBatch by decide), dif_pos (show (0 : Fin S9248x256.rank) ∈ dot_S64x256_S9248x256_S64x9248_1_1_0_0_n_n.rhsNonContracting by decide)]
  rfl
theorem padR1 (i : S64x9248.Idx) (q : dot_S64x256_S9248x256_S64x9248_1_1_0_0_n_n.contr.Idx) :
    (dot_S64x256_S9248x256_S64x9248_1_1_0_0_n_n.rhsIdx i q 1).val = (q ⟨0, by decide⟩).val :=
  dot_S64x256_S9248x256_S64x9248_1_1_0_0_n_n.rhsIdx_val_of_single rfl i q

theorem wL0 (i : S64x256.Idx) (q : dot_S64x9248_S256x9248_S64x256_1_1_0_0_n_n.contr.Idx) :
    (dot_S64x9248_S256x9248_S64x256_1_1_0_0_n_n.lhsIdx i q 0).val = (i 0).val := by
  unfold DotDims.lhsIdx
  rw [dif_neg (show ¬(0 : Fin S64x9248.rank) ∈ dot_S64x9248_S256x9248_S64x256_1_1_0_0_n_n.lhsBatch by decide), dif_pos (show (0 : Fin S64x9248.rank) ∈ dot_S64x9248_S256x9248_S64x256_1_1_0_0_n_n.lhsNonContracting by decide)]
  rfl
theorem wL1 (i : S64x256.Idx) (q : dot_S64x9248_S256x9248_S64x256_1_1_0_0_n_n.contr.Idx) :
    (dot_S64x9248_S256x9248_S64x256_1_1_0_0_n_n.lhsIdx i q 1).val = (q ⟨0, by decide⟩).val :=
  dot_S64x9248_S256x9248_S64x256_1_1_0_0_n_n.lhsIdx_val_of_single rfl i q
theorem wR0 (i : S64x256.Idx) (q : dot_S64x9248_S256x9248_S64x256_1_1_0_0_n_n.contr.Idx) :
    (dot_S64x9248_S256x9248_S64x256_1_1_0_0_n_n.rhsIdx i q 0).val = (i 1).val := by
  unfold DotDims.rhsIdx
  rw [dif_neg (show ¬(0 : Fin S256x9248.rank) ∈ dot_S64x9248_S256x9248_S64x256_1_1_0_0_n_n.rhsBatch by decide), dif_pos (show (0 : Fin S256x9248.rank) ∈ dot_S64x9248_S256x9248_S64x256_1_1_0_0_n_n.rhsNonContracting by decide)]
  rfl
theorem wR1 (i : S64x256.Idx) (q : dot_S64x9248_S256x9248_S64x256_1_1_0_0_n_n.contr.Idx) :
    (dot_S64x9248_S256x9248_S64x256_1_1_0_0_n_n.rhsIdx i q 1).val = (q ⟨0, by decide⟩).val :=
  dot_S64x9248_S256x9248_S64x256_1_1_0_0_n_n.rhsIdx_val_of_single rfl i q

/-! ## The payloads at an entry -/

/-- The reset stores zero. -/
theorem reset_apply (j : S64x9248.Idx) : k0_pay1 (F := Ideal) j = 0 := by
  unfold k0_pay1
  rw [shapeCast_self]
  show Ideal.ofBits .f32 0x00000000#32 = 0
  exact Ideal.ofBits_zero_f32

/-- The accumulating step at (p, q): the old entry plus the 256-term dot product of the two blocks' rows. -/
theorem step_apply (v3 : Vec Ideal S64x256 .f32) (v5 : Vec Ideal S9248x256 .f32) (v7 : Vec Ideal S64x9248 .f32)
    (p : Fin 64) (q : Fin 9248) :
    k0_pay2 (F := Ideal) v3 v5 v7 (ix2 p q) = v7 (ix2 p q) + ∑ j : Fin 256, v3 (ix2 p j) * v5 (ix2 q j) := by
  unfold k0_pay2
  rw [shapeCast_self]
  refine congrArg (v7 (ix2 p q) + ·) ?_
  simp only [matmul]
  rw [Ideal.matmul_constant_zero_apply, ← Equiv.sum_comp (ValueIdx.contrEquiv1 dot_S64x256_S9248x256_S64x9248_1_1_0_0_n_n 256 rfl rfl).symm]
  refine Finset.sum_congr rfl fun k _ => ?_
  have hk := ValueIdx.contrEquiv1_symm_val dot_S64x256_S9248x256_S64x9248_1_1_0_0_n_n 256 rfl rfl k
  have el : dot_S64x256_S9248x256_S64x9248_1_1_0_0_n_n.lhsIdx (ix2 p q) ((ValueIdx.contrEquiv1 dot_S64x256_S9248x256_S64x9248_1_1_0_0_n_n 256 rfl rfl).symm k) = ix2 p k := funext fun a => Fin.ext (by
    match a with
    | ⟨0, _⟩ => exact padL0 _ _
    | ⟨1, _⟩ => exact (padL1 _ _).trans hk)
  have er : dot_S64x256_S9248x256_S64x9248_1_1_0_0_n_n.rhsIdx (ix2 p q) ((ValueIdx.contrEquiv1 dot_S64x256_S9248x256_S64x9248_1_1_0_0_n_n 256 rfl rfl).symm k) = ix2 q k := funext fun a => Fin.ext (by
    match a with
    | ⟨0, _⟩ => exact padR0 _ _
    | ⟨1, _⟩ => exact (padR1 _ _).trans hk)
  rw [el, er]
  rfl

/-- The second kernel's block at (p, q): the 9248-term dot product of the two operands' rows plus the bias entry. -/
theorem bias_apply (v0 : Vec Ideal S64x9248 .f32) (v3 : Vec Ideal S256x9248 .f32) (v6 : Vec Ideal S1x256 .f32)
    (p : Fin 64) (q : Fin 256) :
    k1_pay1 (F := Ideal) v0 v3 v6 (ix2 p q) = (∑ k : Fin 9248, v0 (ix2 p k) * v3 (ix2 q k)) + v6 (ix2 (0 : Fin 1) q) := by
  unfold k1_pay1
  rw [shapeCast_self, shapeCast_self]
  rw [addf_apply, broadcastTo_1b_ab_apply]
  refine congrArg (· + v6 (ix2 (0 : Fin 1) q)) ?_
  simp only [matmul]
  rw [Ideal.matmul_constant_zero_apply, ← Equiv.sum_comp (ValueIdx.contrEquiv1 dot_S64x9248_S256x9248_S64x256_1_1_0_0_n_n 9248 rfl rfl).symm]
  refine Finset.sum_congr rfl fun k _ => ?_
  have hk := ValueIdx.contrEquiv1_symm_val dot_S64x9248_S256x9248_S64x256_1_1_0_0_n_n 9248 rfl rfl k
  have el : dot_S64x9248_S256x9248_S64x256_1_1_0_0_n_n.lhsIdx (ix2 p q) ((ValueIdx.contrEquiv1 dot_S64x9248_S256x9248_S64x256_1_1_0_0_n_n 9248 rfl rfl).symm k) = ix2 p k := funext fun a => Fin.ext (by
    match a with
    | ⟨0, _⟩ => exact wL0 _ _
    | ⟨1, _⟩ => exact (wL1 _ _).trans hk)
  have er : dot_S64x9248_S256x9248_S64x256_1_1_0_0_n_n.rhsIdx (ix2 p q) ((ValueIdx.contrEquiv1 dot_S64x9248_S256x9248_S64x256_1_1_0_0_n_n 9248 rfl rfl).symm k) = ix2 q k := funext fun a => Fin.ext (by
    match a with
    | ⟨0, _⟩ => exact wR0 _ _
    | ⟨1, _⟩ => exact (wR1 _ _).trans hk)
  rw [el, er]
  rfl

end Cert.KernelIdeal.Val

end
-- ==== Proof.Spec.lean ====
import Idealize.ShloMosaic.PureOps.Ideal
import Idealize.ShloMosaic.Lib.ValueIdx

/-!
  The function both programs compute, over the extended reals.

  For `x` (64 × 8192), `P` (9248 × 8192), `w` (16384 × 9248) and a vector `b` (16384):

      padded x P p k = ∑ j, x (p, j) · P (k, j)
      out (p, q)     = (∑ k, padded x P p k · w (q, k)) + b q.

  The first kernel forms `padded` 256 columns at a time, adding each block's partial dot product to a running sum that
  starts at zero. Only commutativity and associativity of addition are used to regroup the 8192 terms into 32 blocks of
  256, so nothing here asks the entries to be finite.
-/

noncomputable section

open scoped BigOperators

namespace Cert.Spec

open Idealize.ShloMosaic Idealize.ShloMosaic.ValueIdx

/-- Row `p` of `x` against row `k` of `P`. -/
def padded (x : (⟨2, ![64, 8192]⟩ : Shape).Idx → EReal) (P : (⟨2, ![9248, 8192]⟩ : Shape).Idx → EReal)
    (p : Fin 64) (k : Fin 9248) : EReal :=
  ∑ j : Fin 8192, x (ix2 p j) * P (ix2 k j)

/-- The whole result. -/
def out (x : (⟨2, ![64, 8192]⟩ : Shape).Idx → EReal) (w : (⟨2, ![16384, 9248]⟩ : Shape).Idx → EReal)
    (b : (⟨1, ![16384]⟩ : Shape).Idx → EReal) (P : (⟨2, ![9248, 8192]⟩ : Shape).Idx → EReal) :
    (⟨2, ![64, 16384]⟩ : Shape).Idx → EReal :=
  fun i => (∑ k : Fin 9248, padded x P (i 0) k * w (ix2 (i 1) k)) + b (ix1 (i 1))

/-- A sum over 8192 columns is the sum over 32 blocks of 256 consecutive columns. -/
theorem sum_blocks {M : Type*} [AddCommMonoid M] (g : Fin 8192 → M) :
    ∑ s : Fin 32, ∑ j : Fin 256, g ⟨256 * s.val + j.val, by omega⟩ = ∑ n : Fin 8192, g n := by
  rw [← Fintype.sum_prod_type']
  refine Fintype.sum_equiv (finProdFinEquiv (m := 32) (n := 256)) _ _ fun x => ?_
  refine congrArg g (Fin.ext ?_)
  rw [finProdFinEquiv_apply_val]
  dsimp only
  omega

/-- Column `n` of row `p` of a matrix with 8192 columns, zero past the end (a total function of the column number, so
    that a block's columns can be named by arithmetic). -/
def col {r : ℕ} (X : (⟨2, ![r, 8192]⟩ : Shape).Idx → EReal) (p : Fin r) (n : ℕ) : EReal :=
  if h : n < 8192 then X (ix2 p ⟨n, h⟩) else 0

theorem col_of_lt {r : ℕ} (X : (⟨2, ![r, 8192]⟩ : Shape).Idx → EReal) (p : Fin r) (n : ℕ) (h : n < 8192) :
    col X p n = X (ix2 p ⟨n, h⟩) := dif_pos h

/-- Block `s`'s share of the dot product: columns `256 s … 256 s + 255`. -/
def blockDot (x : (⟨2, ![64, 8192]⟩ : Shape).Idx → EReal) (P : (⟨2, ![9248, 8192]⟩ : Shape).Idx → EReal)
    (p : Fin 64) (k : Fin 9248) (s : ℕ) : EReal :=
  ∑ j : Fin 256, col x p (256 * s + j.val) * col P k (256 * s + j.val)

/-- Zero plus the 32 blocks' shares is the whole dot product. -/
theorem sum_blockDot (x : (⟨2, ![64, 8192]⟩ : Shape).Idx → EReal) (P : (⟨2, ![9248, 8192]⟩ : Shape).Idx → EReal)
    (p : Fin 64) (k : Fin 9248) :
    (0 : EReal) + ∑ s ∈ Finset.range 32, blockDot x P p k s = padded x P p k := by
  rw [zero_add, ← Fin.sum_univ_eq_sum_range (fun s => blockDot x P p k s) 32]
  unfold blockDot padded
  rw [← sum_blocks (fun n => x (ix2 p n) * P (ix2 k n))]
  refine Finset.sum_congr rfl fun s _ => Finset.sum_congr rfl fun j _ => ?_
  have h : 256 * s.val + j.val < 8192 := by omega
  rw [col_of_lt x p _ h, col_of_lt P k _ h]

end Cert.Spec

end
-- ==== Proof.KernelValue.lean ====
import proofs.«136431_j73967926771856_1_alg».proof.Proof.RunKI
import proofs.«136431_j73967926771856_1_alg».proof.Proof.Payload
import proofs.«136431_j73967926771856_1_alg».proof.Proof.Spec
import Idealize.ShloMosaic.Lib.StableHlo.Run

/-!
  What the idealized kernel's result array holds, over the extended reals.

  The first kernel's output block is the whole 64 × 9248 array, written back once, after the last of its 32 points; what it
  writes is the running sum after point 31, and entry (p, k) of the running sum after point n is zero plus the shares of
  blocks 0 … n of the dot product of row p of `x` with row k of `P`. The second kernel's point t writes columns
  256 t … 256 t + 255 of the 64 × 16384 result: entry (p, q) of its block is the dot product of row p of the first kernel's
  result with row 256 t + q of `w`, plus entry 256 t + q of the reshaped vector `b`.
-/

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand
open scoped BigOperators

/-! ## The first kernel's index maps over its grid -/

theorem idxA0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem idxA1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)
theorem idxA2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

section FirstKernel
variable (V : (c : Dev nD) → (b : Ref sig .tc) → Buf (Elt Ideal) ((c : Thread nD τ).loc b))

/-- Entry (p, j) of block t of `x` is entry (p, 256 t + j) of `x`. -/
theorem blkA_0_apply (c : Dev nD) (t : Fin cfg0.N) (p : Fin 64) (j : Fin 256) (h : 256 * t.val + j.val < 8192) :
    (blkA V c 0 t : Vec Ideal S64x256 .f32) (ix2 p j) = V c main_arg0 (ix2 p ⟨256 * t.val + j.val, h⟩) := by
  unfold blkA
  rw [View.read_apply]
  show V c main_arg0 _ = V c main_arg0 _
  congr 1
  funext a
  apply Fin.ext
  match a with
  | ⟨0, _⟩ => show win0_0.index t 0 * 64 + 1 * p.val = p.val; rw [(idxA0 t).1]; omega
  | ⟨1, _⟩ => show win0_0.index t 1 * 256 + 1 * j.val = 256 * t.val + j.val; rw [(idxA0 t).2]; omega

/-- Entry (k, j) of block t of `P` is entry (k, 256 t + j) of `P`. -/
theorem blkA_1_apply (c : Dev nD) (t : Fin cfg0.N) (k : Fin 9248) (j : Fin 256) (h : 256 * t.val + j.val < 8192) :
    (blkA V c 1 t : Vec Ideal S9248x256 .f32) (ix2 k j) = V c main_arg3 (ix2 k ⟨256 * t.val + j.val, h⟩) := by
  unfold blkA
  rw [View.read_apply]
  show V c main_arg3 _ = V c main_arg3 _
  congr 1
  funext a
  apply Fin.ext
  match a with
  | ⟨0, _⟩ => show win0_1.index t 0 * 9248 + 1 * k.val = k.val; rw [(idxA1 t).1]; omega
  | ⟨1, _⟩ => show win0_1.index t 1 * 256 + 1 * j.val = 256 * t.val + j.val; rw [(idxA1 t).2]; omega

/-- The two input blocks at point t, at their literal shapes. -/
abbrev xBlk (c : Dev nD) (t : Fin cfg0.N) : Vec Ideal S64x256 .f32 := blkA V c 0 t
abbrev pBlk (c : Dev nD) (t : Fin cfg0.N) : Vec Ideal S9248x256 .f32 := blkA V c 1 t

/-- The dot product of the two blocks' rows at point t is block t's share of the whole dot product. -/
theorem blockDot_eq (c : Dev nD) (t : Fin cfg0.N) (p : Fin 64) (k : Fin 9248) :
    ∑ j : Fin 256, xBlk V c t (ix2 p j) * pBlk V c t (ix2 k j)
      = Cert.Spec.blockDot (V c main_arg0) (V c main_arg3) p k t.val := by
  have hN : t.val < 32 := lt_of_lt_of_eq t.isLt (show cfg0.N = 32 from N_0)
  unfold Cert.Spec.blockDot
  refine Finset.sum_congr rfl fun j _ => ?_
  have h : 256 * t.val + j.val < 8192 := by have := j.isLt; omega
  rw [Cert.Spec.col_of_lt _ _ _ h, Cert.Spec.col_of_lt _ _ _ h]
  exact congrArg₂ (· * ·) (blkA_0_apply V c t p j h) (blkA_1_apply V c t k j h)

/-- Entry (p, k) of the running sum after point n: zero plus the shares of blocks 0 … n. -/
theorem accA_apply (c : Dev nD) : ∀ (n : ℕ) (hn : n < cfg0.N) (p : Fin 64) (k : Fin 9248),
    accA V c n hn (ix2 p k) = 0 + ∑ s ∈ Finset.range (n + 1), Cert.Spec.blockDot (V c main_arg0) (V c main_arg3) p k s
  | 0, hn, p, k => by
    rw [show accA V c 0 hn = k0_pay2 (blkA V c 0 ⟨0, hn⟩) (blkA V c 1 ⟨0, hn⟩) (k0_pay1 (F := Ideal)) from rfl,
      step_apply, reset_apply, Finset.sum_range_one]
    exact congrArg (0 + ·) (blockDot_eq V c ⟨0, hn⟩ p k)
  | n + 1, hn, p, k => by
    rw [show accA V c (n + 1) hn = k0_pay2 (blkA V c 0 ⟨n + 1, hn⟩) (blkA V c 1 ⟨n + 1, hn⟩) (accA V c n (Nat.lt_of_succ_lt hn)) from rfl,
      step_apply, accA_apply c n _ p k, Finset.sum_range_succ _ (n + 1), ← add_assoc]
    exact congrArg (_ + ·) (blockDot_eq V c ⟨n + 1, hn⟩ p k)

/-- The first kernel's last point. -/
abbrev tLast : Fin cfg0.N := ⟨31, lt_of_lt_of_eq (by decide) N_0.symm⟩

/-- The first kernel's result as an array: the running sum after its last point. -/
def padOut (c : Dev nD) : Buf (Elt Ideal) ((c : Thread nD τ).loc main_v0) :=
  accA V c tLast.val tLast.isLt

/-- Its entries are the whole dot products. -/
theorem padOut_apply (c : Dev nD) (p : Fin 64) (k : Fin 9248) :
    padOut V c (ix2 p k) = Cert.Spec.padded (V c main_arg0) (V c main_arg3) p k := by
  unfold padOut
  rw [accA_apply V c tLast.val tLast.isLt p k]
  exact Cert.Spec.sum_blockDot _ _ p k

/-- The one write-back, at point 31, writes it: the block at index (0, 0) of sizes 64 × 9248 is the array. -/
theorem flushedA (c : Dev nD) (t : Fin cfg0.N) (hf : (cfg0.win 2).flush t = true) :
    (datA V c).flushed 2 t = ((cfg0.win 2).blk t).view.read (Elt Ideal) (padOut V c) := by
  have hN : t.val < 32 := lt_of_lt_of_eq t.isLt (show cfg0.N = 32 from N_0)
  have h31 : t.val = 31 := by have := (flush0_2 t).mp hf; omega
  obtain rfl : t = tLast := Fin.ext h31
  show (cfg0.win 2).cut (grid0.coords tLast) ((datA V c).after 2 tLast) = _
  rw [afterA_2]
  have hz' : (fun a => win0_2.index tLast a * main_v0.ty.shape.size a) = fun _ => 0 := funext fun a => by
    match a with
    | ⟨0, _⟩ => show win0_2.index tLast (0 : Fin 2) * _ = 0; rw [(idxA2 tLast).1]; exact Nat.zero_mul _
    | ⟨1, _⟩ => show win0_2.index tLast (1 : Fin 2) * _ = 0; rw [(idxA2 tLast).2]; exact Nat.zero_mul _
  exact (Memref.read_access_unit_zero (Elt Ideal) main_v0 hz'
    (fun a => Nat.le_of_eq (by rw [show win0_2.index tLast a * main_v0.ty.shape.size a = 0 from congrFun hz' a, Nat.zero_add])) (padOut V c)).symm

/-- An index of the array is in a point's block iff each coordinate is in the block's range on its axis. -/
theorem mem_blkA (t : Fin cfg0.N) (i : S64x9248.Idx) :
    i ∈ ((cfg0.win 2).blk t).view.set ↔ ∀ a : Fin 2, win0_2.index t a * S64x9248.size a ≤ (i a).val ∧ (i a).val < win0_2.index t a * S64x9248.size a + S64x9248.size a := by
  show i ∈ ((View.whole main_v0).slice (win0_2.rect t)).set ↔ _
  rw [View.set_slice_whole, Rect.mem_set_unit]
  exact Iff.rfl

/-- So the first kernel's result array ends at `padOut`. -/
theorem finalA (c : Dev nD) : (datA V c).arrAt 2 cfg0.N = padOut V c :=
  (datA V c).arrAt_eq_of_cover 2 (padOut V c) (flushedA V c) fun i =>
    ⟨tLast, (flush0_2 tLast).mpr rfl, by
      rw [mem_blkA]
      intro a
      match a with
      | ⟨0, _⟩ => show win0_2.index tLast (0 : Fin 2) * 64 ≤ (i 0).val ∧ (i 0).val < win0_2.index tLast (0 : Fin 2) * 64 + 64
                  have h0 : (i 0).val < 64 := (i 0).isLt
                  rw [(idxA2 tLast).1]; omega
      | ⟨1, _⟩ => show win0_2.index tLast (1 : Fin 2) * 9248 ≤ (i 1).val ∧ (i 1).val < win0_2.index tLast (1 : Fin 2) * 9248 + 9248
                  have h1 : (i 1).val < 9248 := (i 1).isLt
                  rw [(idxA2 tLast).2]; omega⟩

end FirstKernel

/-! ## The second kernel's index maps over its grid -/

theorem idxB0 : ∀ t : Fin cfg1.N, win1_0.index t (0 : Fin 2) = 0 ∧ win1_0.index t (1 : Fin 2) = 0 :=
  (by decide +kernel : ∀ t : Fin grid1.N, win1_0.index t (0 : Fin 2) = 0 ∧ win1_0.index t (1 : Fin 2) = 0)
theorem idxB1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)
theorem idxB2 : ∀ t : Fin cfg1.N, win1_2.index t (0 : Fin 2) = 0 ∧ win1_2.index t (1 : Fin 2) = t.val :=
  (by decide +kernel : ∀ t : Fin grid1.N, win1_2.index t (0 : Fin 2) = 0 ∧ win1_2.index t (1 : Fin 2) = t.val)
theorem idxB3 : ∀ t : Fin cfg1.N, win1_3.index t (0 : Fin 2) = 0 ∧ win1_3.index t (1 : Fin 2) = t.val :=
  (by decide +kernel : ∀ t : Fin grid1.N, win1_3.index t (0 : Fin 2) = 0 ∧ win1_3.index t (1 : Fin 2) = t.val)

section SecondKernel
variable (V : (c : Dev nD) → (b : Ref sig .tc) → Buf (Elt Ideal) ((c : Thread nD τ).loc b))

/-- The three input blocks at point t, at their literal shapes. -/
abbrev aBlk (c : Dev nD) (t : Fin cfg1.N) : Vec Ideal S64x9248 .f32 := blkB V c 0 t
abbrev wBlk (c : Dev nD) (t : Fin cfg1.N) : Vec Ideal S256x9248 .f32 := blkB V c 1 t
abbrev bBlk (c : Dev nD) (t : Fin cfg1.N) : Vec Ideal S1x256 .f32 := blkB V c 2 t

/-- The first operand's block is the whole array at every point. -/
theorem aBlk_apply (c : Dev nD) (t : Fin cfg1.N) (p : Fin 64) (k : Fin 9248) :
    aBlk V c t (ix2 p k) = V c main_v0 (ix2 p k) := by
  unfold aBlk blkB
  rw [View.read_apply]
  show V c main_v0 _ = V c main_v0 _
  congr 1
  funext a
  apply Fin.ext
  match a with
  | ⟨0, _⟩ => show win1_0.index t 0 * 64 + 1 * p.val = p.val; rw [(idxB0 t).1]; omega
  | ⟨1, _⟩ => show win1_0.index t 1 * 9248 + 1 * k.val = k.val; rw [(idxB0 t).2]; omega

/-- Entry (q, k) of block t of `w` is entry (256 t + q, k) of `w`. -/
theorem wBlk_apply (c : Dev nD) (t : Fin cfg1.N) (q : Fin 256) (k : Fin 9248) (h : 256 * t.val + q.val < 16384) :
    wBlk V c t (ix2 q k) = V c main_arg1 (ix2 ⟨256 * t.val + q.val, h⟩ k) := by
  unfold wBlk blkB
  rw [View.read_apply]
  show V c main_arg1 _ = V c main_arg1 _
  congr 1
  funext a
  apply Fin.ext
  match a with
  | ⟨0, _⟩ => show win1_1.index t 0 * 256 + 1 * q.val = 256 * t.val + q.val; rw [(idxB1 t).1]; omega
  | ⟨1, _⟩ => show win1_1.index t 1 * 9248 + 1 * k.val = k.val; rw [(idxB1 t).2]; omega

/-- Entry (0, q) of block t of the reshaped vector is its entry (0, 256 t + q). -/
theorem bBlk_apply (c : Dev nD) (t : Fin cfg1.N) (q : Fin 256) (h : 256 * t.val + q.val < 16384) :
    bBlk V c t (ix2 (0 : Fin 1) q) = V c main_v1 (ix2 (0 : Fin 1) ⟨256 * t.val + q.val, h⟩) := by
  unfold bBlk blkB
  rw [View.read_apply]
  show V c main_v1 _ = V c main_v1 _
  congr 1
  funext a
  apply Fin.ext
  match a with
  | ⟨0, _⟩ => show win1_2.index t 0 * 1 + 1 * 0 = 0; rw [(idxB2 t).1]
  | ⟨1, _⟩ => show win1_2.index t 1 * 256 + 1 * q.val = 256 * t.val + q.val; rw [(idxB2 t).2]; omega

/-- The three arrays the second kernel reads, at their literal shapes. -/
abbrev arrA (c : Dev nD) : Vec Ideal S64x9248 .f32 := V c main_v0
abbrev arrW (c : Dev nD) : Vec Ideal S16384x9248 .f32 := V c main_arg1
abbrev arrB (c : Dev nD) : Vec Ideal S1x16384 .f32 := V c main_v1

/-- The second kernel's result as one function of the arrays it finds. -/
def biasOut (c : Dev nD) : Buf (Elt Ideal) ((c : Thread nD τ).loc main_v2) := fun i =>
  (∑ k : Fin 9248, arrA V c (ix2 (i 0) k) * arrW V c (ix2 (i 1) k)) + arrB V c (ix2 (0 : Fin 1) (i 1))

/-- What point t writes back is block t of it. -/
theorem flushedB (c : Dev nD) (t : Fin cfg1.N) :
    (datB V c).flushed 3 t = ((cfg1.win 3).blk t).view.read (Elt Ideal) (biasOut V c) := by
  have hN : t.val < 64 := lt_of_lt_of_eq t.isLt (show cfg1.N = 64 from N_1)
  show (cfg1.win 3).cut (grid1.coords t) ((datB V c).after 3 t) = _
  rw [afterB_3]
  funext y
  obtain ⟨p, q, rfl⟩ : ∃ (p : Fin 64) (q : Fin 256), y = ix2 p q := ⟨y 0, y 1, eq_ix2 y⟩
  have hq : 256 * t.val + q.val < 16384 := by have := q.isLt; omega
  have he : ((cfg1.win 3).blk t).view.emb (ix2 p q) = ix2 p ⟨256 * t.val + q.val, hq⟩ := by
    funext a; apply Fin.ext
    match a with
    | ⟨0, _⟩ => show win1_3.index t (0 : Fin 2) * 64 + 1 * p.val = p.val; rw [(idxB3 t).1]; omega
    | ⟨1, _⟩ => show win1_3.index t (1 : Fin 2) * 256 + 1 * q.val = 256 * t.val + q.val; rw [(idxB3 t).2]; omega
  show k1_pay1 (F := Ideal) (aBlk V c t) (wBlk V c t) (bBlk V c t) (ix2 p q) = biasOut V c (((cfg1.win 3).blk t).view.emb (ix2 p q))
  rw [he, bias_apply]
  show _ = (∑ k : Fin 9248, arrA V c (ix2 p k) * arrW V c (ix2 ⟨256 * t.val + q.val, hq⟩ k)) + arrB V c (ix2 (0 : Fin 1) ⟨256 * t.val + q.val, hq⟩)
  rw [show bBlk V c t (ix2 (0 : Fin 1) q) = arrB V c (ix2 (0 : Fin 1) ⟨256 * t.val + q.val, hq⟩) from bBlk_apply V c t q hq]
  refine congrArg (· + _) (Finset.sum_congr rfl fun k _ => ?_)
  exact congrArg₂ (· * ·) (aBlk_apply V c t p k) (wBlk_apply V c t q k hq)

theorem mem_blkB (t : Fin cfg1.N) (i : S64x16384.Idx) :
    i ∈ ((cfg1.win 3).blk t).view.set ↔ ∀ a : Fin 2, win1_3.index t a * S64x256.size a ≤ (i a).val ∧ (i a).val < win1_3.index t a * S64x256.size a + S64x256.size a := by
  show i ∈ ((View.whole main_v2).slice (win1_3.rect t)).set ↔ _
  rw [View.set_slice_whole, Rect.mem_set_unit]
  exact Iff.rfl

/-- The 64 column blocks fill the array (column n lies in block n / 256), so it ends at `biasOut`. -/
theorem finalB (c : Dev nD) : (datB V c).arrAt 3 cfg1.N = biasOut V c :=
  (datB V c).arrAt_eq_of_cover 3 (biasOut V c) (fun t _ => flushedB V c t) fun i => by
    have h0 : (i 0).val < 64 := (i 0).isLt
    have h1 : (i 1).val < 16384 := (i 1).isLt
    refine ⟨⟨(i 1).val / 256, lt_of_lt_of_eq (by omega) N_1.symm⟩, flush1_3 _, ?_⟩
    rw [mem_blkB]
    intro a
    match a with
    | ⟨0, _⟩ => show win1_3.index _ (0 : Fin 2) * 64 ≤ (i 0).val ∧ (i 0).val < win1_3.index _ (0 : Fin 2) * 64 + 64
                rw [(idxB3 _).1]; omega
    | ⟨1, _⟩ => show win1_3.index _ (1 : Fin 2) * 256 ≤ (i 1).val ∧ (i 1).val < win1_3.index _ (1 : Fin 2) * 256 + 256
                rw [(idxB3 _).2]; dsimp only; omega

end SecondKernel

/-! ## The whole run's result -/

section Whole
variable (m : (ℓ : Loc nD τ sig) → Buf (Elt Ideal) ℓ)

/-- The second kernel finds the first kernel's result in its first operand, -/
theorem found_v0 (c : Dev nD) : E2r m c main_v0 = padOut (E0r m) c :=
  (E2_of_ne m c main_v0 (by decide)).trans ((E1_arr m c 2).trans (finalA (E0r m) c))
/-- `w` as launched in its second, -/
theorem found_arg1 (c : Dev nD) : E2r m c main_arg1 = m ((c : Thread nD τ).loc main_arg1) :=
  (E2_of_ne m c main_arg1 (by decide)).trans ((E1_of_ne m c main_arg1 (by decide)).trans rfl)
/-- and the vector `b` reshaped to one row in its third. -/
theorem found_v1 (c : Dev nD) (n : Fin 16384) :
    arrB (E2r m) c (ix2 (0 : Fin 1) n) = m ((c : Thread nD τ).loc main_arg2) (ix1 n) := by
  have e : (E2 m c (Proc.devRef .tc main_v1) : S1x16384.Idx → EReal) = shapeCast S1x16384 (E1 m c (Proc.devRef .tc main_arg2)) shapeCasts_S16384_S1x16384 := by
    show StableHlo.after hostOps1 (E1 m c) (Proc.devRef .tc main_v1) = _
    after_results
    rfl
  show (E2 m c (Proc.devRef .tc main_v1) : S1x16384.Idx → EReal) (ix2 (0 : Fin 1) n) = _
  rw [e]
  refine (shapeCast_apply _ shapeCasts_S16384_S1x16384 (ix2 (0 : Fin 1) n) (ix1 n) (by
    rw [Shape.rowMajor_val_one, Shape.rowMajor_val_two]; show n.val = 0 * 16384 + n.val; omega)).trans ?_
  exact congrFun ((E1_of_ne m c main_arg2 (by decide)).trans rfl) (ix1 n)

/-- THE RESULT: the result array ends at the specification's function of the four arguments as launched. -/
theorem out_eq (c : Dev nD) :
    E3 m c (Proc.devRef .tc main_v2) = Cert.Spec.out (m ((c : Thread nD τ).loc main_arg0)) (m ((c : Thread nD τ).loc main_arg1))
      (m ((c : Thread nD τ).loc main_arg2)) (m ((c : Thread nD τ).loc main_arg3)) := by
  refine (E3_arr m c 3).trans ((finalB (E2r m) c).trans ?_)
  funext i
  have e0 : ∀ k : Fin 9248, arrA (E2r m) c (ix2 (i 0) k)
      = Cert.Spec.padded (m ((c : Thread nD τ).loc main_arg0)) (m ((c : Thread nD τ).loc main_arg3)) (i 0) k :=
    fun k => (congrFun (found_v0 m c) _).trans (padOut_apply (E0r m) c (i 0) k)
  have e1 : ∀ k : Fin 9248, arrW (E2r m) c (ix2 (i 1) k) = m ((c : Thread nD τ).loc main_arg1) (ix2 (i 1) k) :=
    fun k => congrFun (found_arg1 m c) _
  show (∑ k : Fin 9248, arrA (E2r m) c (ix2 (i 0) k) * arrW (E2r m) c (ix2 (i 1) k)) + arrB (E2r m) c (ix2 (0 : Fin 1) (i 1))
    = (∑ k : Fin 9248, Cert.Spec.padded (m ((c : Thread nD τ).loc main_arg0)) (m ((c : Thread nD τ).loc main_arg3)) (i 0) k
        * m ((c : Thread nD τ).loc main_arg1) (ix2 (i 1) k)) + m ((c : Thread nD τ).loc main_arg2) (ix1 (i 1))
  rw [found_v1 m c (i 1)]
  refine congrArg (· + _) (Finset.sum_congr rfl fun k _ => ?_)
  rw [e0 k, e1 k]

end Whole

end Cert.KernelIdeal.Val

end
-- ==== Proof.RefValue.lean ====
import proofs.«136431_j73967926771856_1_alg».proof.Proof.Gen.ReferenceIdeal.Read
import proofs.«136431_j73967926771856_1_alg».proof.Proof.Spec

/-!
  The reference computes `Spec.out`: its two transposes turn "contract the first operand's second axis with
  the second operand's first axis" into "contract both operands' second axes"; its two broadcasts spread the vector `b` over
  the 64 rows.
-/

noncomputable section

namespace Cert.ReferenceIdeal.RefValue

open Idealize.ShloMosaic Idealize.ShloMosaic.ValueIdx Cert.ReferenceIdeal Cert.ReferenceIdeal.Read
open scoped BigOperators

theorem ref_eq_spec (x0 : (⟨S64x8192, .f32⟩ : BufTy).Contents (Elt Ideal)) (x1 : (⟨S16384x9248, .f32⟩ : BufTy).Contents (Elt Ideal))
    (x2 : (⟨S16384, .f32⟩ : BufTy).Contents (Elt Ideal)) (x3 : (⟨S9248x8192, .f32⟩ : BufTy).Contents (Elt Ideal)) :
    val_main_v6 (F := Ideal) x0 x1 x2 x3 = Cert.Spec.out x0 x1 x2 x3 := by
  funext i
  rw [val_main_v6_apply, val_main_v3_apply, val_main_v5_apply, val_main_v4_apply]
  unfold Cert.Spec.out
  show (∑ k : Fin 9248, _) + _ = _
  have e4 : idx_main_v4 (idx_main_v5 i) = ix1 (i 1) := funext fun a => by
    match a with
    | ⟨0, _⟩ => rfl
  rw [e4]
  refine congrArg (· + x2 (ix1 (i 1))) (Finset.sum_congr rfl fun k _ => ?_)
  rw [val_main_v1_apply, val_main_v2_apply]
  have e2 : idx_main_v2 (ridx_main_v3 i k) = ix2 (i 1) k := funext fun a => by
    match a with
    | ⟨0, _⟩ => rfl
    | ⟨1, _⟩ => rfl
  rw [e2]
  unfold Cert.Spec.padded
  refine congrArg (· * x1 (ix2 (i 1) k)) (Finset.sum_congr rfl fun j _ => ?_)
  rw [val_main_v0_apply]
  have el : lidx_main_v1 (lidx_main_v3 i k) j = ix2 (i 0) j := funext fun a => by
    match a with
    | ⟨0, _⟩ => rfl
    | ⟨1, _⟩ => rfl
  have er : idx_main_v0 (ridx_main_v1 (lidx_main_v3 i k) j) = ix2 k j := funext fun a => by
    match a with
    | ⟨0, _⟩ => rfl
    | ⟨1, _⟩ => rfl
  rw [el, er]
  rfl

end Cert.ReferenceIdeal.RefValue

end
-- ==== Proof.lean ====
/-
  The proof of `Cert.Claim`: the three frames, `preserves` (no rewrite was applied, so the conjunct is `True`) and the
  algebraic claim.

  Both programs compute, over the extended reals,

      out (p, q) = (∑ k < 9248, (∑ j < 8192, x (p, j) · P (k, j)) · w (q, k)) + b q     (Proof/Spec.lean).

  The kernel forms the inner sum 256 columns at a time in a scratch accumulator carried across the 32 points of its first
  grid (zero plus the 32 blocks' shares: a regrouping of one finite sum, which needs no finiteness), writes it out at the
  last point, and its second grid forms the outer sum and adds `b`, one block of 256 columns of the result per point. The
  reference forms both sums whole.

  The kernel's run (Proof/RunK.lean at the word-level instance, Proof/RunKI.lean at the ideal one) is the chain of its two
  kernels around the host reshape of `b`; Proof/KernelValue.lean reads the result array off that run; the reference's run
  and its reading at an index are imported.
-/
import proofs.«136431_j73967926771856_1_alg».proof.Defs
import proofs.«136431_j73967926771856_1_alg».proof.Proof.Gen.Kernel
import proofs.«136431_j73967926771856_1_alg».proof.Proof.Gen.KernelIdeal
import proofs.«136431_j73967926771856_1_alg».proof.Proof.Gen.ReferenceIdeal
import proofs.«136431_j73967926771856_1_alg».proof.Proof.Gen.Pre_finite_inputs
import proofs.«136431_j73967926771856_1_alg».proof.Proof.Gen.ReferenceIdeal.Run
import proofs.«136431_j73967926771856_1_alg».proof.Proof.Gen.ReferenceIdeal.Read
import proofs.«136431_j73967926771856_1_alg».proof.Proof.RunK
import proofs.«136431_j73967926771856_1_alg».proof.Proof.RunKI
import proofs.«136431_j73967926771856_1_alg».proof.Proof.KernelValue
import proofs.«136431_j73967926771856_1_alg».proof.Proof.RefValue

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal instance both result arrays end at `Spec.out` of arguments that agree. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun _ h c =>
      ⟨(h c _ (Cert.KernelIdeal.Hand.mem_uc Cert.KernelIdeal.main_v2 (by decide))).trans (Cert.KernelIdeal.Val.out_eq m c),
       (h c _ (Cert.KernelIdeal.Hand.mem_uc Cert.KernelIdeal.main_arg0 (by decide))).trans (Cert.KernelIdeal.Hand.E3_main_arg0 m c),
       (h c _ (Cert.KernelIdeal.Hand.mem_uc Cert.KernelIdeal.main_arg1 (by decide))).trans (Cert.KernelIdeal.Hand.E3_main_arg1 m c),
       (h c _ (Cert.KernelIdeal.Hand.mem_uc Cert.KernelIdeal.main_arg2 (by decide))).trans (Cert.KernelIdeal.Hand.E3_main_arg2 m c),
       (h c _ (Cert.KernelIdeal.Hand.mem_uc Cert.KernelIdeal.main_arg3 (by decide))).trans (Cert.KernelIdeal.Hand.E3_main_arg3 m c)⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v6_eq, Cert.ReferenceIdeal.RefValue.ref_eq_spec,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
